-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x256 : Shape := ⟨2, ![8192, 256]⟩
abbrev S8192x512 : Shape := ⟨2, ![8192, 512]⟩
abbrev S1024x512 : Shape := ⟨2, ![1024, 512]⟩
abbrev S512x512 : Shape := ⟨2, ![512, 512]⟩
abbrev S512x256 : Shape := ⟨2, ![512, 256]⟩
abbrev S512x1024 : Shape := ⟨2, ![512, 1024]⟩
abbrev S256x512 : Shape := ⟨2, ![256, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x512 : S_.BroadcastsInDim S8192x512 (![] : Fin 0 → Fin S8192x512.rank)
  reducesTo_S8192x512_S_d0_1 : S8192x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S512x1024 : S_.BroadcastsInDim S512x1024 (![] : Fin 0 → Fin S512x1024.rank)
  reducesTo_S512x1024_S_d0_1 : S512x1024.ReducesTo [0, 1] S_
  bcast_S_S256x512 : S_.BroadcastsInDim S256x512 (![] : Fin 0 → Fin S256x512.rank)
  reducesTo_S256x512_S_d0_1 : S256x512.ReducesTo [0, 1] S_

variable [Facts]

def fn_part6 {F : FTy → Type} [FloatOps F] (main_arg21 : FVec F S512x256 .f32) (main_v98 : IVec S_ 1) (main_v101 : IVec S512x512 1) (main_c_39 : IVec S_ 1) : IVec S_ 1 :=
  let main_v102 : IVec S_ 1 := (fun x v => Host.reduce IntOp.andi x v reducesTo_S512x512_S_d0_1 h_S_) main_v101 main_c_39
  let main_v103 : IVec S_ 1 := andi main_v98 main_v102
  let main_v104 : FVec F S512x256 .f32 := Host.absf main_arg21
  let main_cst_40 : FVec F S_ .f32 := constant S_ .f32 0x7F800000#32
  let main_v105 : FVec F S512x256 .f32 := broadcastInDim S512x256 ![] bcast_S_S512x256 main_cst_40
  let main_v106 : IVec S512x256 1 := cmpf .olt main_v104 main_v105
  let main_c_41 : IVec S_ 1 := constantI S_ 1 1#1
  let main_v107 : IVec S_ 1 := (fun x v => Host.reduce IntOp.andi x v reducesTo_S512x256_S_d0_1 h_S_) main_v106 main_c_41
  let main_v108 : IVec S_ 1 := andi main_v103 main_v107
  main_v108

def fn_part5 {F : FTy → Type} [FloatOps F] (main_arg18 : FVec F S256x512 .f32) (main_arg19 : FVec F S1024x512 .f32) (main_arg20 : FVec F S512x512 .f32) (main_arg21 : FVec F S512x256 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S256x512 .f32 := Host.absf main_arg18
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S1024x512 .f32 := Host.absf main_arg19
  let main_cst_36 : FVec F S_ .f32 := constant S_ .f32 0x7F800000#32
  let main_v95 : FVec F S1024x512 .f32 := broadcastInDim S1024x512 ![] bcast_S_S1024x512 main_cst_36
  let main_v96 : IVec S1024x512 1 := cmpf .olt main_v94 main_v95
  let main_c_37 : IVec S_ 1 := constantI S_ 1 1#1
  let main_v97 : IVec S_ 1 := (fun x v => Host.reduce IntOp.andi x v reducesTo_S1024x512_S_d0_1 h_S_) main_v96 main_c_37
  let main_v98 : IVec S_ 1 := andi main_v93 main_v97
  let main_v99 : FVec F S512x512 .f32 := Host.absf main_arg20
  let main_cst_38 : FVec F S_ .f32 := constant S_ .f32 0x7F800000#32
  let main_v100 : FVec F S512x512 .f32 := broadcastInDim S512x512 ![] bcast_S_S512x512 main_cst_38
  let main_v101 : IVec S512x512 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S512x512 .f32) (main_arg15 : FVec F S256x512 .f32) (main_arg16 : FVec F S512x1024 .f32) (main_arg17 : FVec F S512x512 .f32) (main_arg18 : FVec F S256x512 .f32) (main_arg19 : FVec F S1024x512 .f32) (main_arg20 : FVec F S512x512 .f32) (main_arg21 : FVec F S512x256 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S256x512 .f32 := Host.absf main_arg15
  let main_cst_28 : FVec F S_ .f32 := constant S_ .f32 0x7F800000#32
  let main_v75 : FVec F S256x512 .f32 := broadcastInDim S256x512 ![] bcast_S_S256x512 main_cst_28
  let main_v76 : IVec S256x512 1 := cmpf .olt main_v74 main_v75
  let main_c_29 : IVec S_ 1 := constantI S_ 1 1#1
  let main_v77 : IVec S_ 1 := (fun x v => Host.reduce IntOp.andi x v reducesTo_S256x512_S_d0_1 h_S_) main_v76 main_c_29
  let main_v78 : IVec S_ 1 := andi main_v73 main_v77
  let main_v79 : FVec F S512x1024 .f32 := Host.absf main_arg16
  let main_cst_30 : FVec F S_ .f32 := constant S_ .f32 0x7F800000#32
  let main_v80 : FVec F S512x1024 .f32 := broadcastInDim S512x1024 ![] bcast_S_S512x1024 main_cst_30
  let main_v81 : IVec S512x1024 1 := cmpf .olt main_v79 main_v80
  let main_c_31 : IVec S_ 1 := constantI S_ 1 1#1
  let main_v82 : IVec S_ 1 := (fun x v => Host.reduce IntOp.andi x v reducesTo_S512x1024_S_d0_1 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S512x512 .f32) (main_arg12 : FVec F S512x256 .f32) (main_arg13 : FVec F S512x1024 .f32) (main_arg14 : FVec F S512x512 .f32) (main_arg15 : FVec F S256x512 .f32) (main_arg16 : FVec F S512x1024 .f32) (main_arg17 : FVec F S512x512 .f32) (main_arg18 : FVec F S256x512 .f32) (main_arg19 : FVec F S1024x512 .f32) (main_arg20 : FVec F S512x512 .f32) (main_arg21 : FVec F S512x256 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x256 .f32 := Host.absf main_arg12
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S512x1024 .f32 := Host.absf main_arg13
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S8192x512 .f32) (main_arg8 : FVec F S8192x512 .f32) (main_arg9 : FVec F S8192x512 .f32) (main_arg10 : FVec F S1024x512 .f32) (main_arg11 : FVec F S512x512 .f32) (main_arg12 : FVec F S512x256 .f32) (main_arg13 : FVec F S512x1024 .f32) (main_arg14 : FVec F S512x512 .f32) (main_arg15 : FVec F S256x512 .f32) (main_arg16 : FVec F S512x1024 .f32) (main_arg17 : FVec F S512x512 .f32) (main_arg18 : FVec F S256x512 .f32) (main_arg19 : FVec F S1024x512 .f32) (main_arg20 : FVec F S512x512 .f32) (main_arg21 : FVec F S512x256 .f32) (main_v33 : IVec S_ 1) : IVec S_ 1 :=
  let main_v34 : FVec F S8192x512 .f32 := Host.absf main_arg7
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : IVec S_ 1 := andi main_v33 main_v37
  let main_v39 : FVec F S8192x512 .f32 := Host.absf main_arg8
  let main_cst_14 : FVec F S_ .f32 := constant S_ .f32 0x7F800000#32
  let main_v40 : FVec F S8192x512 .f32 := broadcastInDim S8192x512 ![] bcast_S_S8192x512 main_cst_14
  let main_v41 : IVec S8192x512 1 := cmpf .olt main_v39 main_v40
  let main_c_15 : IVec S_ 1 := constantI S_ 1 1#1
  let main_v42 : IVec S_ 1 := (fun x v => Host.reduce IntOp.andi x v reducesTo_S8192x512_S_d0_1 h_S_) main_v41 main_c_15
  let main_v43 : IVec S_ 1 := andi main_v38 main_v42
  let main_v44 : FVec F S8192x512 .f32 := Host.absf main_arg9
  let main_cst_16 : FVec F S_ .f32 := constant S_ .f32 0x7F800000#32
  let main_v45 : FVec F S8192x512 .f32 := broadcastInDim S8192x512 ![] bcast_S_S8192x512 main_cst_16
  let main_v46 : IVec S8192x512 1 := cmpf .olt main_v44 main_v45
  let main_c_17 : IVec S_ 1 := constantI S_ 1 1#1
  let main_v47 : IVec S_ 1 := (fun x v => Host.reduce IntOp.andi x v reducesTo_S8192x512_S_d0_1 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S8192x512 .f32) (main_arg5 : FVec F S8192x512 .f32) (main_arg6 : FVec F S8192x512 .f32) (main_arg7 : FVec F S8192x512 .f32) (main_arg8 : FVec F S8192x512 .f32) (main_arg9 : FVec F S8192x512 .f32) (main_arg10 : FVec F S1024x512 .f32) (main_arg11 : FVec F S512x512 .f32) (main_arg12 : FVec F S512x256 .f32) (main_arg13 : FVec F S512x1024 .f32) (main_arg14 : FVec F S512x512 .f32) (main_arg15 : FVec F S256x512 .f32) (main_arg16 : FVec F S512x1024 .f32) (main_arg17 : FVec F S512x512 .f32) (main_arg18 : FVec F S256x512 .f32) (main_arg19 : FVec F S1024x512 .f32) (main_arg20 : FVec F S512x512 .f32) (main_arg21 : FVec F S512x256 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x1024 .f32) (main_arg1 : FVec F S8192x256 .f32) (main_arg2 : FVec F S8192x512 .f32) (main_arg3 : FVec F S8192x512 .f32) (main_arg4 : FVec F S8192x512 .f32) (main_arg5 : FVec F S8192x512 .f32) (main_arg6 : FVec F S8192x512 .f32) (main_arg7 : FVec F S8192x512 .f32) (main_arg8 : FVec F S8192x512 .f32) (main_arg9 : FVec F S8192x512 .f32) (main_arg10 : FVec F S1024x512 .f32) (main_arg11 : FVec F S512x512 .f32) (main_arg12 : FVec F S512x256 .f32) (main_arg13 : FVec F S512x1024 .f32) (main_arg14 : FVec F S512x512 .f32) (main_arg15 : FVec F S256x512 .f32) (main_arg16 : FVec F S512x1024 .f32) (main_arg17 : FVec F S512x512 .f32) (main_arg18 : FVec F S256x512 .f32) (main_arg19 : FVec F S1024x512 .f32) (main_arg20 : FVec F S512x512 .f32) (main_arg21 : FVec F S512x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x1024 : Shape := ⟨2, ![8192, 1024]⟩
abbrev S8192x256 : Shape := ⟨2, ![8192, 256]⟩
abbrev S8192x512 : Shape := ⟨2, ![8192, 512]⟩
abbrev S1024x512 : Shape := ⟨2, ![1024, 512]⟩
abbrev S512x512 : Shape := ⟨2, ![512, 512]⟩
abbrev S512x256 : Shape := ⟨2, ![512, 256]⟩
abbrev S512x1024 : Shape := ⟨2, ![512, 1024]⟩
abbrev S256x512 : Shape := ⟨2, ![256, 512]⟩
abbrev S8192x4096 : Shape := ⟨2, ![8192, 4096]⟩
abbrev S256x1024 : Shape := ⟨2, ![256, 1024]⟩
abbrev S256x256 : Shape := ⟨2, ![256, 256]⟩
abbrev S256x4096 : Shape := ⟨2, ![256, 4096]⟩

abbrev nBuf : Space → Nat
  | .hbm => 33
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S1024x512, .f32⟩
  | .hbm, ⟨11, _⟩ => ⟨S512x512, .f32⟩
  | .hbm, ⟨12, _⟩ => ⟨S512x256, .f32⟩
  | .hbm, ⟨13, _⟩ => ⟨S512x1024, .f32⟩
  | .hbm, ⟨14, _⟩ => ⟨S512x512, .f32⟩
  | .hbm, ⟨15, _⟩ => ⟨S256x512, .f32⟩
  | .hbm, ⟨16, _⟩ => ⟨S512x1024, .f32⟩
  | .hbm, ⟨17, _⟩ => ⟨S512x512, .f32⟩
  | .hbm, ⟨18, _⟩ => ⟨S256x512, .f32⟩
  | .hbm, ⟨19, _⟩ => ⟨S1024x512, .f32⟩
  | .hbm, ⟨20, _⟩ => ⟨S512x512, .f32⟩
  | .hbm, ⟨21, _⟩ => ⟨S512x256, .f32⟩
  | .hbm, ⟨22, _⟩ => ⟨S1024x512, .bf16⟩
  | .hbm, ⟨23, _⟩ => ⟨S512x512, .bf16⟩
  | .hbm, ⟨24, _⟩ => ⟨S512x256, .bf16⟩
  | .hbm, ⟨25, _⟩ => ⟨S512x1024, .bf16⟩
  | .hbm, ⟨26, _⟩ => ⟨S512x512, .bf16⟩
  | .hbm, ⟨27, _⟩ => ⟨S256x512, .bf16⟩
  | .hbm, ⟨28, _⟩ => ⟨S512x1024, .bf16⟩
  | .hbm, ⟨29, _⟩ => ⟨S512x512, .bf16⟩
  | .hbm, ⟨30, _⟩ => ⟨S512x512, .bf16⟩
  | .hbm, ⟨31, _⟩ => ⟨S512x256, .bf16⟩
  | .hbm, ⟨32, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1024x512, .bf16⟩
  | .local _ .vmem, ⟨21, _⟩ => ⟨S512x512, .bf16⟩
  | .local _ .vmem, ⟨22, _⟩ => ⟨S512x256, .bf16⟩
  | .local _ .vmem, ⟨23, _⟩ => ⟨S512x1024, .bf16⟩
  | .local _ .vmem, ⟨24, _⟩ => ⟨S512x512, .bf16⟩
  | .local _ .vmem, ⟨25, _⟩ => ⟨S256x512, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | .local _ .vmem, ⟨29, _⟩ => ⟨S512x256, .bf16⟩
  | .local _ .vmem, ⟨30, _⟩ => ⟨S256x4096, .f32⟩
  | .local _ .vmem, ⟨31, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x4096 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S256x512_S256x512 : S256x512.ShapeCasts S256x512
  natLt_1_32 : 1 < 32
  inb_S256x4096_S256x512_0_0 : ∀ a, (![0, 0] : Fin 2 → Nat) a + S256x512.size a ≤ S256x4096.size a
  inb_S256x4096_S256x512_0_512 : ∀ a, (![0, 512] : Fin 2 → Nat) a + S256x512.size a ≤ S256x4096.size a
  inb_S256x4096_S256x512_0_1024 : ∀ a, (![0, 1024] : Fin 2 → Nat) a + S256x512.size a ≤ S256x4096.size a
  inb_S256x4096_S256x512_0_1536 : ∀ a, (![0, 1536] : Fin 2 → Nat) a + S256x512.size a ≤ S256x4096.size a
  inb_S256x4096_S256x512_0_2048 : ∀ a, (![0, 2048] : Fin 2 → Nat) a + S256x512.size a ≤ S256x4096.size a
  inb_S256x4096_S256x512_0_2560 : ∀ a, (![0, 2560] : Fin 2 → Nat) a + S256x512.size a ≤ S256x4096.size a
  inb_S256x4096_S256x512_0_3072 : ∀ a, (![0, 3072] : Fin 2 → Nat) a + S256x512.size a ≤ S256x4096.size a
  inb_S256x4096_S256x512_0_3584 : ∀ a, (![0, 3584] : Fin 2 → Nat) a + S256x512.size a ≤ S256x4096.size a
  dot_S256x512_S1024x512_S256x1024_1_1_0_0_n_n_wf : DotDims.WF S256x512 S1024x512 S256x1024 [1] [1] [0] [0] [] []
  dot_S256x512_S512x512_S256x512_1_1_0_0_n_n_wf : DotDims.WF S256x512 S512x512 S256x512 [1] [1] [0] [0] [] []
  dot_S256x256_S512x256_S256x512_1_1_0_0_n_n_wf : DotDims.WF S256x256 S512x256 S256x512 [1] [1] [0] [0] [] []
  dot_S256x1024_S512x1024_S256x512_1_1_0_0_n_n_wf : DotDims.WF S256x1024 S512x1024 S256x512 [1] [1] [0] [0] [] []
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x256.size a
  hwx0_1 : ∀ i : grid0.Coords, EltTy.bits .f32 = 32 ∨ (Rect.block (s := S8192x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S8192x512.size a
  hwx0_2 : ∀ i : grid0.Coords, EltTy.bits .f32 = 32 ∨ (Rect.block (s := S8192x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x512.size a
  hwx0_3 : ∀ i : grid0.Coords, EltTy.bits .f32 = 32 ∨ (Rect.block (s := S8192x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S8192x512.size a
  hwx0_5 : ∀ i : grid0.Coords, EltTy.bits .f32 = 32 ∨ (Rect.block (s := S8192x512) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x512.size a
  hwx0_6 : ∀ i : grid0.Coords, EltTy.bits .f32 = 32 ∨ (Rect.block (s := S8192x512) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S8192x512.size a
  hwx0_7 : ∀ i : grid0.Coords, EltTy.bits .f32 = 32 ∨ (Rect.block (s := S8192x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S8192x512.size a
  hwx0_8 : ∀ i : grid0.Coords, EltTy.bits .f32 = 32 ∨ (Rect.block (s := S8192x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S8192x512.size a
  hwx0_9 : ∀ i : grid0.Coords, EltTy.bits .f32 = 32 ∨ (Rect.block (s := S8192x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .bf16 = 32 ∨ (Rect.block (s := S512x256) S512x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S512x1024.size a
  hwx0_13 : ∀ i : grid0.Coords, EltTy.bits .bf16 = 32 ∨ (Rect.block (s := S512x1024) S512x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S256x512.size a
  hwx0_15 : ∀ i : grid0.Coords, EltTy.bits .bf16 = 32 ∨ (Rect.block (s := S256x512) S256x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S512x1024.size a
  hwx0_16 : ∀ i : grid0.Coords, EltTy.bits .bf16 = 32 ∨ (Rect.block (s := S512x1024) S512x1024.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .bf16 = 32 ∨ (Rect.block (s := S512x512) S512x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .bf16 = 32 ∨ (Rect.block (s := S512x512) S512x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x256.size a ≤ S512x256.size a
  hwx0_19 : ∀ i : grid0.Coords, EltTy.bits .bf16 = 32 ∨ (Rect.block (s := S512x256) S512x256.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x4096.size a ≤ S8192x4096.size a
  hwx0_20 : ∀ i : grid0.Coords, EltTy.bits .f32 = 32 ∨ (Rect.block (s := S8192x4096) S256x4096.size (cc0_transform_20 i) (hinb0_20 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x256_S512x256_S256x512_1_1_0_0_n_n : DotDims S256x256 S512x256 S256x512 where
  lhsContracting := [1]
  rhsContracting := [1]
  lhsNonContracting := [0]
  rhsNonContracting := [0]
  lhsBatch := []
  rhsBatch := []
  wf := dot_S256x256_S512x256_S256x512_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S512x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v5) S256x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6) S512x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9) S512x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v10) S256x4096.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x256 : Shape := ⟨2, ![8192, 256]⟩
abbrev S8192x512 : Shape := ⟨2, ![8192, 512]⟩
abbrev S1024x512 : Shape := ⟨2, ![1024, 512]⟩
abbrev S512x512 : Shape := ⟨2, ![512, 512]⟩
abbrev S512x256 : Shape := ⟨2, ![512, 256]⟩
abbrev S512x1024 : Shape := ⟨2, ![512, 1024]⟩
abbrev S256x512 : Shape := ⟨2, ![256, 512]⟩
abbrev S_ : Shape := ⟨0, ![]⟩
abbrev S8192x4096 : Shape := ⟨2, ![8192, 4096]⟩

abbrev nBuf : Space → Nat
  | .hbm => 131
  | .vmem => 0
  | .smem => 0
  | _ => 0

abbrev hbmTy0_0 (i : Nat) : BufTy := match i % 128 with
  | 0 => ⟨S8192x1024, .f32⟩
  | 1 => ⟨S8192x256, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S1024x512, .f32⟩
  | 11 => ⟨S512x512, .f32⟩
  | 12 => ⟨S512x256, .f32⟩
  | 13 => ⟨S512x1024, .f32⟩
  | 14 => ⟨S512x512, .f32⟩
  | 15 => ⟨S256x512, .f32⟩
  | 16 => ⟨S512x1024, .f32⟩
  | 17 => ⟨S512x512, .f32⟩
  | 18 => ⟨S256x512, .f32⟩
  | 19 => ⟨S1024x512, .f32⟩
  | 20 => ⟨S512x512, .f32⟩
  | 21 => ⟨S512x256, .f32⟩
  | 22 => ⟨S512x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S512x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S256x512, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S1024x512, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S512x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S512x256, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S8192x512, .f32⟩
  | 59 => ⟨S8192x512, .f32⟩
  | 60 => ⟨S1024x512, .f32⟩
  | 61 => ⟨S8192x512, .f32⟩
  | 62 => ⟨S8192x512, .f32⟩
  | 63 => ⟨S512x512, .f32⟩
  | 64 => ⟨S8192x512, .f32⟩
  | 65 => ⟨S8192x512, .f32⟩
  | 66 => ⟨S8192x512, .f32⟩
  | 67 => ⟨S8192x512, .f32⟩
  | 68 => ⟨S512x512, .f32⟩
  | 69 => ⟨S8192x512, .f32⟩
  | 70 => ⟨S8192x512, .f32⟩
  | 71 => ⟨S256x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S_, .f32⟩
  | 89 => ⟨S8192x512, .f32⟩
  | 90 => ⟨S8192x512, .i1⟩
  | 91 => ⟨S8192x512, .f32⟩
  | 92 => ⟨S_, .f32⟩
  | 93 => ⟨S8192x512, .f32⟩
  | 94 => ⟨S8192x512, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S8192x512, .f32⟩
  | 116 => ⟨S_, .f32⟩
  | 117 => ⟨S8192x512, .f32⟩
  | 118 => ⟨S8192x512, .i1⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x4096, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_7 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_9 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_12 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S_S8192x1024 : S_.BroadcastsInDim S8192x1024 (![] : Fin 0 → Fin S8192x1024.rank)
  transposes_S512x512_S512x512_1_0 : S512x512.Transposes [1, 0] S512x512
  bcast_S_S8192x512 : S_.BroadcastsInDim S8192x512 (![] : Fin 0 → Fin S8192x512.rank)
  transposes_S512x256_S256x512_1_0 : S512x256.Transposes [1, 0] S256x512
  transposes_S512x1024_S1024x512_1_0 : S512x1024.Transposes [1, 0] S1024x512
  transposes_S256x512_S512x256_1_0 : S256x512.Transposes [1, 0] S512x256
  bcast_S_S8192x256 : S_.BroadcastsInDim S8192x256 (![] : Fin 0 → Fin S8192x256.rank)
  concatenates_S8192x512_S8192x512_S8192x512_S8192x512_S8192x512_S8192x512_S8192x512_S8192x512_S8192x4096_d1 : Shape.Concatenates [S8192x512, S8192x512, S8192x512, S8192x512, S8192x512, S8192x512, S8192x512, S8192x512] S8192x4096 1
  dot_S8192x512_S512x1024_S8192x1024_1_0_0_1_n_n_wf : DotDims.WF S8192x512 S512x1024 S8192x1024 [1] [0] [0] [1] [] []
  dot_S8192x512_S512x512_S8192x512_1_0_0_1_n_n_wf : DotDims.WF S8192x512 S512x512 S8192x512 [1] [0] [0] [1] [] []
  dot_S8192x256_S256x512_S8192x512_1_0_0_1_n_n_wf : DotDims.WF S8192x256 S256x512 S8192x512 [1] [0] [0] [1] [] []
  dot_S8192x1024_S1024x512_S8192x512_1_0_0_1_n_n_wf : DotDims.WF S8192x1024 S1024x512 S8192x512 [1] [0] [0] [1] [] []
  dot_S8192x512_S512x256_S8192x256_1_0_0_1_n_n_wf : DotDims.WF S8192x512 S512x256 S8192x256 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

class Facts : Prop extends Facts₀ where

variable [Facts]
-- ==== Proof.Spec.lean ====
/-
  The update both programs compute, written once for ONE batch row.

  A row carries the clamped input and target (1024 and 256 entries) and, for each of the two hidden layers, a
  current, a membrane potential, a spike vector and a spike trace (512 entries each). The weights are ten matrices,
  each used through its transpose: a row `a` of `K` entries meets the matrix `w` of `N` rows and `K` columns in
  `mv a w n = ∑ k, a k * w n k`. Six prediction errors `x − a·wᵀ` are formed first, two total inputs from them, and each
  layer then takes one leaky-integrator step: current, potential, threshold, reset, trace. Everything is arithmetic on
  the extended reals, and the seven float literals stay the words the programs print.
-/
import Idealize.ShloMosaic.PureOps.Ideal.Laws
import Idealize.ShloMosaic.Lib.ValueIdx

noncomputable section

namespace Cert.Lif

open Idealize.ShloMosaic Idealize.ShloMosaic.ValueIdx

/-! ## The literals -/

abbrev one : EReal := Ideal.ofBits .f32 0x3F800000#32
abbrev tenth : EReal := Ideal.ofBits .f32 0x3DCCCCCD#32
abbrev twentieth : EReal := Ideal.ofBits .f32 0x3D4CCCCD#32
abbrev negQuarter : EReal := Ideal.ofBits .f32 0xBE800000#32
abbrev thresh : EReal := Ideal.ofBits .f32 0x3ECCCCCD#32
abbrev twenty : EReal := Ideal.ofBits .f32 0x41A00000#32

/-! ## Rows and matrices out of two-axis arrays -/

/-- Row `r` of a two-axis array. -/
abbrev row {a b : Nat} (A : (⟨2, ![a, b]⟩ : Shape).Idx → EReal) (r : Fin a) : Fin b → EReal := fun k => A (ix2 r k)

/-- A two-axis array as a function of its two coordinates. -/
abbrev mat {a b : Nat} (A : (⟨2, ![a, b]⟩ : Shape).Idx → EReal) : Fin a → Fin b → EReal := fun n k => A (ix2 n k)

/-! ## One row against a transposed matrix, and a prediction error -/

/-- Entry `n` of the row `a` times the transpose of `w`. -/
def mv {K N : Nat} (a : Fin K → EReal) (w : Fin N → Fin K → EReal) (n : Fin N) : EReal := ∑ k : Fin K, a k * w n k

/-- A prediction error: the observed `x` less the prediction `a·wᵀ`, under the unit gain both programs keep. -/
def err {K N : Nat} (x : Fin N → EReal) (a : Fin K → EReal) (w : Fin N → Fin K → EReal) (n : Fin N) : EReal :=
  one * (x n - mv a w n)

/-! ## The state of one row, and the weights -/

structure Row where
  xin : Fin 1024 → EReal
  y : Fin 256 → EReal
  j1 : Fin 512 → EReal
  v1 : Fin 512 → EReal
  s1 : Fin 512 → EReal
  x1 : Fin 512 → EReal
  j2 : Fin 512 → EReal
  v2 : Fin 512 → EReal
  s2 : Fin 512 → EReal
  x2 : Fin 512 → EReal

structure Wts where
  W0 : Fin 1024 → Fin 512 → EReal
  W1 : Fin 512 → Fin 512 → EReal
  W2 : Fin 512 → Fin 256 → EReal
  V0 : Fin 512 → Fin 1024 → EReal
  V1 : Fin 512 → Fin 512 → EReal
  V2 : Fin 256 → Fin 512 → EReal
  Eg0 : Fin 512 → Fin 1024 → EReal
  Eg1 : Fin 512 → Fin 512 → EReal
  Ed1 : Fin 512 → Fin 512 → EReal
  Ed2 : Fin 512 → Fin 256 → EReal

variable (r : Row) (w : Wts)

/-! ## The six errors and the two total inputs -/

def egen0 : Fin 1024 → EReal := err r.xin r.s1 w.W0
def egen1 : Fin 512 → EReal := err r.x1 r.s2 w.W1
def egen2 : Fin 512 → EReal := err r.x2 r.y w.W2
def edisc1 : Fin 512 → EReal := err r.x1 r.xin w.V0
def edisc2 : Fin 512 → EReal := err r.x2 r.s1 w.V1
def edisc3 : Fin 256 → EReal := err r.y r.s2 w.V2

def total1 (n : Fin 512) : EReal :=
  -(egen1 r w n + edisc1 r w n) + mv (egen0 r w) w.Eg0 n + mv (edisc2 r w) w.Ed1 n

def total2 (n : Fin 512) : EReal :=
  -(egen2 r w n + edisc2 r w n) + mv (egen1 r w) w.Eg1 n + mv (edisc3 r w) w.Ed2 n

/-! ## One leaky-integrator step on one entry -/

/-- The current after the step. -/
def jNext (j tot : EReal) : EReal := j + tenth * (negQuarter * j + tot)

/-- The potential before the reset, from the NEW current. -/
def vPre (v jn : EReal) : EReal := v + twentieth * (-v + jn)

/-- The spike: one where the potential exceeds the threshold, zero elsewhere. -/
def spike (vp : EReal) : EReal :=
  FloatOps.uitofp (F := Ideal) .f32 (FloatOps.cmpf (F := Ideal) (φ := .f32) .ogt vp thresh)

/-- The potential after the hard reset. -/
def vNext (vp : EReal) : EReal := vp * (one - spike vp)

/-- The spike trace after the step. -/
def xNext (x vp : EReal) : EReal := x + (Ideal.div (-x) twenty + spike vp)

/-! ## The eight results of a row, and the row laid out as the programs return it -/

def j1n (n : Fin 512) : EReal := jNext (r.j1 n) (total1 r w n)
def v1p (n : Fin 512) : EReal := vPre (r.v1 n) (j1n r w n)
def j2n (n : Fin 512) : EReal := jNext (r.j2 n) (total2 r w n)
def v2p (n : Fin 512) : EReal := vPre (r.v2 n) (j2n r w n)

/-- The eight pieces in the order of the result's columns: current, potential, trace, spikes of layer one, then of
    layer two. -/
def piece : Fin 8 → Fin 512 → EReal
  | ⟨0, _⟩ => j1n r w
  | ⟨1, _⟩ => fun n => vNext (v1p r w n)
  | ⟨2, _⟩ => fun n => xNext (r.x1 n) (v1p r w n)
  | ⟨3, _⟩ => fun n => spike (v1p r w n)
  | ⟨4, _⟩ => j2n r w
  | ⟨5, _⟩ => fun n => vNext (v2p r w n)
  | ⟨6, _⟩ => fun n => xNext (r.x2 n) (v2p r w n)
  | ⟨7, _⟩ => fun n => spike (v2p r w n)
  | ⟨_ + 8, h⟩ => absurd h (by omega)

/-- Column `c` of the 4096 of a result row: piece `c / 512` at `c % 512`. -/
def out (c : Fin 4096) : EReal :=
  piece r w ⟨c.val / 512, by have := c.isLt; omega⟩ ⟨c.val % 512, Nat.mod_lt _ (by decide)⟩

theorem out_eq (c : Fin 4096) (q : Fin 8) (n : Fin 512) (h : c.val = 512 * q.val + n.val) : out r w c = piece r w q n := by
  unfold out
  have hq : (⟨c.val / 512, by have := c.isLt; omega⟩ : Fin 8) = q := Fin.ext (by show c.val / 512 = q.val; have := n.isLt; omega)
  have hn : (⟨c.val % 512, Nat.mod_lt _ (by decide)⟩ : Fin 512) = n := Fin.ext (by show c.val % 512 = n.val; have := n.isLt; omega)
  rw [hq, hn]

/-! ## The whole result, for any number of batch rows

Row `i 0` of the result depends on row `i 0` of each batch array and on the whole weight matrices: the batch rows are
independent, so the same function describes a block of rows and the full batch. -/

section Whole

variable {B : Nat}
  (a0 : (⟨2, ![B, 1024]⟩ : Shape).Idx → EReal) (a1 : (⟨2, ![B, 256]⟩ : Shape).Idx → EReal)
  (a2 a3 a4 a5 a6 a7 a8 a9 : (⟨2, ![B, 512]⟩ : Shape).Idx → EReal)
  (w0 : (⟨2, ![1024, 512]⟩ : Shape).Idx → EReal) (w1 : (⟨2, ![512, 512]⟩ : Shape).Idx → EReal)
  (w2 : (⟨2, ![512, 256]⟩ : Shape).Idx → EReal) (w3 : (⟨2, ![512, 1024]⟩ : Shape).Idx → EReal)
  (w4 : (⟨2, ![512, 512]⟩ : Shape).Idx → EReal) (w5 : (⟨2, ![256, 512]⟩ : Shape).Idx → EReal)
  (w6 : (⟨2, ![512, 1024]⟩ : Shape).Idx → EReal) (w7 w8 : (⟨2, ![512, 512]⟩ : Shape).Idx → EReal)
  (w9 : (⟨2, ![512, 256]⟩ : Shape).Idx → EReal)

/-- Batch row `b` of the ten batch arrays. -/
def rowOf (b : Fin B) : Row :=
  ⟨row a0 b, row a1 b, row a2 b, row a3 b, row a4 b, row a5 b, row a6 b, row a7 b, row a8 b, row a9 b⟩

/-- The ten weight matrices. -/
def wtsOf : Wts := ⟨mat w0, mat w1, mat w2, mat w3, mat w4, mat w5, mat w6, mat w7, mat w8, mat w9⟩

/-- The result array: entry `(b, c)` is column `c` of the result of batch row `b`. -/
def G : (⟨2, ![B, 4096]⟩ : Shape).Idx → EReal := fun i =>
  out (rowOf a0 a1 a2 a3 a4 a5 a6 a7 a8 a9 (i 0)) (wtsOf w0 w1 w2 w3 w4 w5 w6 w7 w8 w9) (i 1)

/-- The result at an index whose row is `b` and whose column is entry `n` of piece `q`. -/
theorem G_at (i : (⟨2, ![B, 4096]⟩ : Shape).Idx) (b : Fin B) (q : Fin 8) (n : Fin 512)
    (h0 : (i 0).val = b.val) (h1 : (i 1).val = 512 * q.val + n.val) :
    G a0 a1 a2 a3 a4 a5 a6 a7 a8 a9 w0 w1 w2 w3 w4 w5 w6 w7 w8 w9 i
      = piece (rowOf a0 a1 a2 a3 a4 a5 a6 a7 a8 a9 b) (wtsOf w0 w1 w2 w3 w4 w5 w6 w7 w8 w9) q n := by
  unfold G
  have hb : (i 0 : Fin B) = b := Fin.ext h0
  rw [hb]
  exact out_eq _ _ (i 1) q n h1

/-- A block of consecutive batch rows of the result is the result of the blocks: if row `p` of each batch block is
    row `o + p` of the batch array, entry `j` of the block's result is entry `(o + j 0, j 1)` of the whole one. -/
theorem G_block {B' : Nat} (o : Nat)
    (b0 : (⟨2, ![B', 1024]⟩ : Shape).Idx → EReal) (b1 : (⟨2, ![B', 256]⟩ : Shape).Idx → EReal)
    (b2 b3 b4 b5 b6 b7 b8 b9 : (⟨2, ![B', 512]⟩ : Shape).Idx → EReal)
    (h0 : ∀ (p : Fin B') (b : Fin B), b.val = o + p.val → row b0 p = row a0 b)
    (h1 : ∀ (p : Fin B') (b : Fin B), b.val = o + p.val → row b1 p = row a1 b)
    (h2 : ∀ (p : Fin B') (b : Fin B), b.val = o + p.val → row b2 p = row a2 b)
    (h3 : ∀ (p : Fin B') (b : Fin B), b.val = o + p.val → row b3 p = row a3 b)
    (h4 : ∀ (p : Fin B') (b : Fin B), b.val = o + p.val → row b4 p = row a4 b)
    (h5 : ∀ (p : Fin B') (b : Fin B), b.val = o + p.val → row b5 p = row a5 b)
    (h6 : ∀ (p : Fin B') (b : Fin B), b.val = o + p.val → row b6 p = row a6 b)
    (h7 : ∀ (p : Fin B') (b : Fin B), b.val = o + p.val → row b7 p = row a7 b)
    (h8 : ∀ (p : Fin B') (b : Fin B), b.val = o + p.val → row b8 p = row a8 b)
    (h9 : ∀ (p : Fin B') (b : Fin B), b.val = o + p.val → row b9 p = row a9 b)
    (j : (⟨2, ![B', 4096]⟩ : Shape).Idx) (i : (⟨2, ![B, 4096]⟩ : Shape).Idx)
    (hi0 : (i 0).val = o + (j 0).val) (hi1 : (i 1).val = (j 1).val) :
    G b0 b1 b2 b3 b4 b5 b6 b7 b8 b9 w0 w1 w2 w3 w4 w5 w6 w7 w8 w9 j
      = G a0 a1 a2 a3 a4 a5 a6 a7 a8 a9 w0 w1 w2 w3 w4 w5 w6 w7 w8 w9 i := by
  have hj : (j 1).val < 4096 := (j 1).isLt
  have hc : (j 1).val = 512 * (⟨(j 1).val / 512, by omega⟩ : Fin 8).val + (⟨(j 1).val % 512, Nat.mod_lt _ (by decide)⟩ : Fin 512).val := by
    show (j 1).val = 512 * ((j 1).val / 512) + (j 1).val % 512
    omega
  rw [G_at b0 b1 b2 b3 b4 b5 b6 b7 b8 b9 w0 w1 w2 w3 w4 w5 w6 w7 w8 w9 j (j 0) _ _ rfl hc,
    G_at a0 a1 a2 a3 a4 a5 a6 a7 a8 a9 w0 w1 w2 w3 w4 w5 w6 w7 w8 w9 i (i 0) _ _ rfl (hi1.trans hc)]
  have hrow : rowOf b0 b1 b2 b3 b4 b5 b6 b7 b8 b9 (j 0) = rowOf a0 a1 a2 a3 a4 a5 a6 a7 a8 a9 (i 0) := by
    unfold rowOf
    rw [h0 (j 0) (i 0) hi0, h1 (j 0) (i 0) hi0, h2 (j 0) (i 0) hi0, h3 (j 0) (i 0) hi0, h4 (j 0) (i 0) hi0,
      h5 (j 0) (i 0) hi0, h6 (j 0) (i 0) hi0, h7 (j 0) (i 0) hi0, h8 (j 0) (i 0) hi0, h9 (j 0) (i 0) hi0]
  rw [hrow]

end Whole

end Cert.Lif

end
-- ==== Proof.KerMatmul.lean ====
/-
  The kernel's five matrix products, read at an entry. Each contracts the last axis of both operands, so entry
  `(p, n)` of the product, accumulated from a zero block, is `∑ k, a (p, k) * w (n, k)`: row `p` of the left operand
  against row `n` of the right one. The contraction's index type has one axis; it is re-indexed by that axis's
  coordinate, and the operand indices the dimension numbers name are read off coordinate by coordinate.
-/
import proofs.«171067_j9285719294381_2_alg».proof.Proof.Gen.KernelIdeal
import proofs.«171067_j9285719294381_2_alg».proof.Proof.Spec
import Idealize.ShloMosaic.PureOps.Ideal.Laws
import Idealize.ShloMosaic.Lib.ValueIdx

noncomputable section

namespace Cert.KernelIdeal.Body

open Cert.KernelIdeal Idealize.ShloMosaic Idealize.ShloMosaic.ValueIdx

/-! ### `S256x512` against the transpose of `S1024x512` -/

theorem lhs0_S256x512_S1024x512 (i : S256x1024.Idx) (q : dot_S256x512_S1024x512_S256x1024_1_1_0_0_n_n.contr.Idx) :
    (dot_S256x512_S1024x512_S256x1024_1_1_0_0_n_n.lhsIdx i q 0).val = (i 0).val := by
  unfold DotDims.lhsIdx
  rw [dif_neg (show ¬(0 : Fin S256x512.rank) ∈ dot_S256x512_S1024x512_S256x1024_1_1_0_0_n_n.lhsBatch by decide), dif_pos (show (0 : Fin S256x512.rank) ∈ dot_S256x512_S1024x512_S256x1024_1_1_0_0_n_n.lhsNonContracting by decide)]
  rfl

theorem rhs0_S256x512_S1024x512 (i : S256x1024.Idx) (q : dot_S256x512_S1024x512_S256x1024_1_1_0_0_n_n.contr.Idx) :
    (dot_S256x512_S1024x512_S256x1024_1_1_0_0_n_n.rhsIdx i q 0).val = (i 1).val := by
  unfold DotDims.rhsIdx
  rw [dif_neg (show ¬(0 : Fin S1024x512.rank) ∈ dot_S256x512_S1024x512_S256x1024_1_1_0_0_n_n.rhsBatch by decide), dif_pos (show (0 : Fin S1024x512.rank) ∈ dot_S256x512_S1024x512_S256x1024_1_1_0_0_n_n.rhsNonContracting by decide)]
  rfl

/-- Entry `(p, n)` of the product accumulated from zero: row `p` of the left operand against row `n` of the right. -/
theorem mm_S256x512_S1024x512 {φ₁ φ₂ : FTy} (a : FVec Ideal S256x512 φ₁) (w : FVec Ideal S1024x512 φ₂) (p : Fin 256) (n : Fin 1024) :
    matmul dot_S256x512_S1024x512_S256x1024_1_1_0_0_n_n none a w (constant S256x1024 .f32 0x00000000#32) (ix2 p n)
      = Cert.Lif.mv (fun k : Fin 512 => a (ix2 p k)) (fun (n : Fin 1024) (k : Fin 512) => w (ix2 n k)) n := by
  unfold Cert.Lif.mv
  simp only [matmul]
  rw [Ideal.matmul_constant_zero_apply, ← Equiv.sum_comp (ValueIdx.contrEquiv1 dot_S256x512_S1024x512_S256x1024_1_1_0_0_n_n 512 rfl rfl).symm]
  refine Finset.sum_congr rfl fun k _ => ?_
  have hk := ValueIdx.contrEquiv1_symm_val dot_S256x512_S1024x512_S256x1024_1_1_0_0_n_n 512 rfl rfl k
  have el : dot_S256x512_S1024x512_S256x1024_1_1_0_0_n_n.lhsIdx (ix2 p n) ((ValueIdx.contrEquiv1 dot_S256x512_S1024x512_S256x1024_1_1_0_0_n_n 512 rfl rfl).symm k) = ix2 p k := funext fun a => Fin.ext (by
    match a with
    | ⟨0, _⟩ => exact lhs0_S256x512_S1024x512 _ _
    | ⟨1, _⟩ => exact (dot_S256x512_S1024x512_S256x1024_1_1_0_0_n_n.lhsIdx_val_of_single rfl _ _).trans hk)
  have er : dot_S256x512_S1024x512_S256x1024_1_1_0_0_n_n.rhsIdx (ix2 p n) ((ValueIdx.contrEquiv1 dot_S256x512_S1024x512_S256x1024_1_1_0_0_n_n 512 rfl rfl).symm k) = ix2 n k := funext fun a => Fin.ext (by
    match a with
    | ⟨0, _⟩ => exact rhs0_S256x512_S1024x512 _ _
    | ⟨1, _⟩ => exact (dot_S256x512_S1024x512_S256x1024_1_1_0_0_n_n.rhsIdx_val_of_single rfl _ _).trans hk)
  rw [el, er]

/-! ### `S256x512` against the transpose of `S512x512` -/

theorem lhs0_S256x512_S512x512 (i : S256x512.Idx) (q : dot_S256x512_S512x512_S256x512_1_1_0_0_n_n.contr.Idx) :
    (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide), dif_pos (show (0 : Fin S256x512.rank) ∈ dot_S256x512_S512x512_S256x512_1_1_0_0_n_n.lhsNonContracting by decide)]
  rfl

theorem rhs0_S256x512_S512x512 (i : S256x512.Idx) (q : dot_S256x512_S512x512_S256x512_1_1_0_0_n_n.contr.Idx) :
    (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide), dif_pos (show (0 : Fin S512x512.rank) ∈ dot_S256x512_S512x512_S256x512_1_1_0_0_n_n.rhsNonContracting by decide)]
  rfl

/-- Entry `(p, n)` of the product accumulated from zero: row `p` of the left operand against row `n` of the right. -/
theorem mm_S256x512_S512x512 {φ₁ φ₂ : FTy} (a : FVec Ideal S256x512 φ₁) (w : FVec Ideal S512x512 φ₂) (p : Fin 256) (n : Fin 512) :
    matmul dot_S256x512_S512x512_S256x512_1_1_0_0_n_n none a w (constant S256x512 .f32 0x00000000#32) (ix2 p n)
      = Cert.Lif.mv (fun k : Fin 512 => a (ix2 p k)) (fun (n : Fin 512) (k : Fin 512) => w (ix2 n k)) n := by
  unfold Cert.Lif.mv
  simp only [matmul]
  rw [Ideal.matmul_constant_zero_apply, ← Equiv.sum_comp (ValueIdx.contrEquiv1 dot_S256x512_S512x512_S256x512_1_1_0_0_n_n 512 rfl rfl).symm]
  refine Finset.sum_congr rfl fun k _ => ?_
  have hk := ValueIdx.contrEquiv1_symm_val dot_S256x512_S512x512_S256x512_1_1_0_0_n_n 512 rfl rfl k
  have el : dot_S256x512_S512x512_S256x512_1_1_0_0_n_n.lhsIdx (ix2 p n) ((ValueIdx.contrEquiv1 dot_S256x512_S512x512_S256x512_1_1_0_0_n_n 512 rfl rfl).symm k) = ix2 p k := funext fun a => Fin.ext (by
    match a with
    | ⟨0, _⟩ => exact lhs0_S256x512_S512x512 _ _
    | ⟨1, _⟩ => exact (dot_S256x512_S512x512_S256x512_1_1_0_0_n_n.lhsIdx_val_of_single rfl _ _).trans hk)
  have er : dot_S256x512_S512x512_S256x512_1_1_0_0_n_n.rhsIdx (ix2 p n) ((ValueIdx.contrEquiv1 dot_S256x512_S512x512_S256x512_1_1_0_0_n_n 512 rfl rfl).symm k) = ix2 n k := funext fun a => Fin.ext (by
    match a with
    | ⟨0, _⟩ => exact rhs0_S256x512_S512x512 _ _
    | ⟨1, _⟩ => exact (dot_S256x512_S512x512_S256x512_1_1_0_0_n_n.rhsIdx_val_of_single rfl _ _).trans hk)
  rw [el, er]

/-! ### `S256x256` against the transpose of `S512x256` -/

theorem lhs0_S256x256_S512x256 (i : S256x512.Idx) (q : dot_S256x256_S512x256_S256x512_1_1_0_0_n_n.contr.Idx) :
    (dot_S256x256_S512x256_S256x512_1_1_0_0_n_n.lhsIdx i q 0).val = (i 0).val := by
  unfold DotDims.lhsIdx
  rw [dif_neg (show ¬(0 : Fin S256x256.rank) ∈ dot_S256x256_S512x256_S256x512_1_1_0_0_n_n.lhsBatch by decide), dif_pos (show (0 : Fin S256x256.rank) ∈ dot_S256x256_S512x256_S256x512_1_1_0_0_n_n.lhsNonContracting by decide)]
  rfl

theorem rhs0_S256x256_S512x256 (i : S256x512.Idx) (q : dot_S256x256_S512x256_S256x512_1_1_0_0_n_n.contr.Idx) :
    (dot_S256x256_S512x256_S256x512_1_1_0_0_n_n.rhsIdx i q 0).val = (i 1).val := by
  unfold DotDims.rhsIdx
  rw [dif_neg (show ¬(0 : Fin S512x256.rank) ∈ dot_S256x256_S512x256_S256x512_1_1_0_0_n_n.rhsBatch by decide), dif_pos (show (0 : Fin S512x256.rank) ∈ dot_S256x256_S512x256_S256x512_1_1_0_0_n_n.rhsNonContracting by decide)]
  rfl

/-- Entry `(p, n)` of the product accumulated from zero: row `p` of the left operand against row `n` of the right. -/
theorem mm_S256x256_S512x256 {φ₁ φ₂ : FTy} (a : FVec Ideal S256x256 φ₁) (w : FVec Ideal S512x256 φ₂) (p : Fin 256) (n : Fin 512) :
    matmul dot_S256x256_S512x256_S256x512_1_1_0_0_n_n none a w (constant S256x512 .f32 0x00000000#32) (ix2 p n)
      = Cert.Lif.mv (fun k : Fin 256 => a (ix2 p k)) (fun (n : Fin 512) (k : Fin 256) => w (ix2 n k)) n := by
  unfold Cert.Lif.mv
  simp only [matmul]
  rw [Ideal.matmul_constant_zero_apply, ← Equiv.sum_comp (ValueIdx.contrEquiv1 dot_S256x256_S512x256_S256x512_1_1_0_0_n_n 256 rfl rfl).symm]
  refine Finset.sum_congr rfl fun k _ => ?_
  have hk := ValueIdx.contrEquiv1_symm_val dot_S256x256_S512x256_S256x512_1_1_0_0_n_n 256 rfl rfl k
  have el : dot_S256x256_S512x256_S256x512_1_1_0_0_n_n.lhsIdx (ix2 p n) ((ValueIdx.contrEquiv1 dot_S256x256_S512x256_S256x512_1_1_0_0_n_n 256 rfl rfl).symm k) = ix2 p k := funext fun a => Fin.ext (by
    match a with
    | ⟨0, _⟩ => exact lhs0_S256x256_S512x256 _ _
    | ⟨1, _⟩ => exact (dot_S256x256_S512x256_S256x512_1_1_0_0_n_n.lhsIdx_val_of_single rfl _ _).trans hk)
  have er : dot_S256x256_S512x256_S256x512_1_1_0_0_n_n.rhsIdx (ix2 p n) ((ValueIdx.contrEquiv1 dot_S256x256_S512x256_S256x512_1_1_0_0_n_n 256 rfl rfl).symm k) = ix2 n k := funext fun a => Fin.ext (by
    match a with
    | ⟨0, _⟩ => exact rhs0_S256x256_S512x256 _ _
    | ⟨1, _⟩ => exact (dot_S256x256_S512x256_S256x512_1_1_0_0_n_n.rhsIdx_val_of_single rfl _ _).trans hk)
  rw [el, er]

/-! ### `S256x1024` against the transpose of `S512x1024` -/

theorem lhs0_S256x1024_S512x1024 (i : S256x512.Idx) (q : dot_S256x1024_S512x1024_S256x512_1_1_0_0_n_n.contr.Idx) :
    (dot_S256x1024_S512x1024_S256x512_1_1_0_0_n_n.lhsIdx i q 0).val = (i 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl

theorem rhs0_S256x1024_S512x1024 (i : S256x512.Idx) (q : dot_S256x1024_S512x1024_S256x512_1_1_0_0_n_n.contr.Idx) :
    (dot_S256x1024_S512x1024_S256x512_1_1_0_0_n_n.rhsIdx i q 0).val = (i 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl

/-- Entry `(p, n)` of the product accumulated from zero: row `p` of the left operand against row `n` of the right. -/
theorem mm_S256x1024_S512x1024 {φ₁ φ₂ : FTy} (a : FVec Ideal S256x1024 φ₁) (w : FVec Ideal S512x1024 φ₂) (p : Fin 256) (n : Fin 512) :
    matmul dot_S256x1024_S512x1024_S256x512_1_1_0_0_n_n none a w (constant S256x512 .f32 0x00000000#32) (ix2 p n)
      = Cert.Lif.mv (fun k : Fin 1024 => a (ix2 p k)) (fun (n : Fin 512) (k : Fin 1024) => w (ix2 n k)) n := by
  unfold Cert.Lif.mv
  simp only [matmul]
  rw [Ideal.matmul_constant_zero_apply, ← Equiv.sum_comp (ValueIdx.contrEquiv1 dot_S256x1024_S512x1024_S256x512_1_1_0_0_n_n 1024 rfl rfl).symm]
  refine Finset.sum_congr rfl fun k _ => ?_
  have hk := ValueIdx.contrEquiv1_symm_val dot_S256x1024_S512x1024_S256x512_1_1_0_0_n_n 1024 rfl rfl k
  have el : dot_S256x1024_S512x1024_S256x512_1_1_0_0_n_n.lhsIdx (ix2 p n) ((ValueIdx.contrEquiv1 dot_S256x1024_S512x1024_S256x512_1_1_0_0_n_n 1024 rfl rfl).symm k) = ix2 p k := funext fun a => Fin.ext (by
    match a with
    | ⟨0, _⟩ => exact lhs0_S256x1024_S512x1024 _ _
    | ⟨1, _⟩ => exact (dot_S256x1024_S512x1024_S256x512_1_1_0_0_n_n.lhsIdx_val_of_single rfl _ _).trans hk)
  have er : dot_S256x1024_S512x1024_S256x512_1_1_0_0_n_n.rhsIdx (ix2 p n) ((ValueIdx.contrEquiv1 dot_S256x1024_S512x1024_S256x512_1_1_0_0_n_n 1024 rfl rfl).symm k) = ix2 n k := funext fun a => Fin.ext (by
    match a with
    | ⟨0, _⟩ => exact rhs0_S256x1024_S512x1024 _ _
    | ⟨1, _⟩ => exact (dot_S256x1024_S512x1024_S256x512_1_1_0_0_n_n.rhsIdx_val_of_single rfl _ _).trans hk)
  rw [el, er]

/-! ### `S256x512` against the transpose of `S256x512` -/

theorem lhs0_S256x512_S256x512 (i : S256x256.Idx) (q : dot_S256x512_S256x512_S256x256_1_1_0_0_n_n.contr.Idx) :
    (dot_S256x512_S256x512_S256x256_1_1_0_0_n_n.lhsIdx i q 0).val = (i 0).val := by
  unfold DotDims.lhsIdx
  rw [dif_neg (show ¬(0 : Fin S256x512.rank) ∈ dot_S256x512_S256x512_S256x256_1_1_0_0_n_n.lhsBatch by decide), dif_pos (show (0 : Fin S256x512.rank) ∈ dot_S256x512_S256x512_S256x256_1_1_0_0_n_n.lhsNonContracting by decide)]
  rfl

theorem rhs0_S256x512_S256x512 (i : S256x256.Idx) (q : dot_S256x512_S256x512_S256x256_1_1_0_0_n_n.contr.Idx) :
    (dot_S256x512_S256x512_S256x256_1_1_0_0_n_n.rhsIdx i q 0).val = (i 1).val := by
  unfold DotDims.rhsIdx
  rw [dif_neg (show ¬(0 : Fin S256x512.rank) ∈ dot_S256x512_S256x512_S256x256_1_1_0_0_n_n.rhsBatch by decide), dif_pos (show (0 : Fin S256x512.rank) ∈ dot_S256x512_S256x512_S256x256_1_1_0_0_n_n.rhsNonContracting by decide)]
  rfl

/-- Entry `(p, n)` of the product accumulated from zero: row `p` of the left operand against row `n` of the right. -/
theorem mm_S256x512_S256x512 {φ₁ φ₂ : FTy} (a : FVec Ideal S256x512 φ₁) (w : FVec Ideal S256x512 φ₂) (p : Fin 256) (n : Fin 256) :
    matmul dot_S256x512_S256x512_S256x256_1_1_0_0_n_n none a w (constant S256x256 .f32 0x00000000#32) (ix2 p n)
      = Cert.Lif.mv (fun k : Fin 512 => a (ix2 p k)) (fun (n : Fin 256) (k : Fin 512) => w (ix2 n k)) n := by
  unfold Cert.Lif.mv
  simp only [matmul]
  rw [Ideal.matmul_constant_zero_apply, ← Equiv.sum_comp (ValueIdx.contrEquiv1 dot_S256x512_S256x512_S256x256_1_1_0_0_n_n 512 rfl rfl).symm]
  refine Finset.sum_congr rfl fun k _ => ?_
  have hk := ValueIdx.contrEquiv1_symm_val dot_S256x512_S256x512_S256x256_1_1_0_0_n_n 512 rfl rfl k
  have el : dot_S256x512_S256x512_S256x256_1_1_0_0_n_n.lhsIdx (ix2 p n) ((ValueIdx.contrEquiv1 dot_S256x512_S256x512_S256x256_1_1_0_0_n_n 512 rfl rfl).symm k) = ix2 p k := funext fun a => Fin.ext (by
    match a with
    | ⟨0, _⟩ => exact lhs0_S256x512_S256x512 _ _
    | ⟨1, _⟩ => exact (dot_S256x512_S256x512_S256x256_1_1_0_0_n_n.lhsIdx_val_of_single rfl _ _).trans hk)
  have er : dot_S256x512_S256x512_S256x256_1_1_0_0_n_n.rhsIdx (ix2 p n) ((ValueIdx.contrEquiv1 dot_S256x512_S256x512_S256x256_1_1_0_0_n_n 512 rfl rfl).symm k) = ix2 n k := funext fun a => Fin.ext (by
    match a with
    | ⟨0, _⟩ => exact rhs0_S256x512_S256x512 _ _
    | ⟨1, _⟩ => exact (dot_S256x512_S256x512_S256x256_1_1_0_0_n_n.rhsIdx_val_of_single rfl _ _).trans hk)
  rw [el, er]

end Cert.KernelIdeal.Body

end
-- ==== Proof.KerBody.lean ====
/-
  The kernel's body, read at one entry of its block.

  A grid point holds 256 batch rows. The body forms, for those rows, the six prediction errors, the two total
  inputs and the two leaky-integrator steps, and stores eight 512-column pieces. Each lemma below reads one of the
  body's vector values at row `p` and column `n` and finds the row-wise quantity of the same name: a product with a
  zero accumulator is the plain sum, a change of float format is the identity, `0 - x` is `-x`, and a comparison
  widened to a word and converted is the comparison converted directly.
-/
import proofs.«171067_j9285719294381_2_alg».proof.Proof.Gen.KernelIdeal.Skeleton
import proofs.«171067_j9285719294381_2_alg».proof.Proof.KerMatmul
import Idealize.ShloMosaic.Lib.KernelVsHost
import Idealize.ShloMosaic.Lib.Pipeline.Value

noncomputable section

namespace Cert.KernelIdeal.Body

open Cert.KernelIdeal Cert.KernelIdeal.Gen Idealize.ShloMosaic Idealize.ShloMosaic.ValueIdx Cert.Lif

/-- The zero word is the number zero. -/
theorem zero_word : (Scalar.ofBits .f32 0x00000000#32 : Ideal .f32) = (0 : EReal) := Ideal.ofBits_zero_f32

variable (x0 : Vec Ideal S256x1024 .f32) (x1 : Vec Ideal S256x256 .f32)
  (x2 x3 x4 x5 x6 x7 x8 x9 : Vec Ideal S256x512 .f32)
  (w10 : Vec Ideal S1024x512 .bf16) (w11 : Vec Ideal S512x512 .bf16) (w12 : Vec Ideal S512x256 .bf16)
  (w13 : Vec Ideal S512x1024 .bf16) (w14 : Vec Ideal S512x512 .bf16) (w15 : Vec Ideal S256x512 .bf16)
  (w16 : Vec Ideal S512x1024 .bf16) (w17 w18 : Vec Ideal S512x512 .bf16) (w19 : Vec Ideal S512x256 .bf16)

/-- Row `p` of the point's ten batch blocks. -/
abbrev R (p : Fin 256) : Row := rowOf x0 x1 x2 x3 x4 x5 x6 x7 x8 x9 p

/-- The ten weight matrices as the body loads them. -/
abbrev W : Wts := wtsOf w10 w11 w12 w13 w14 w15 w16 w17 w18 w19

local notation "RR" => R x0 x1 x2 x3 x4 x5 x6 x7 x8 x9
local notation "WW" => W w10 w11 w12 w13 w14 w15 w16 w17 w18 w19

/-! ## The six errors -/

theorem egen1_at (p : Fin 256) (n : Fin 512) :
    k0_pay15 x5 x8 (k0_pay6 w11) (ix2 p n) = egen1 (RR p) WW n := by
  unfold k0_pay15 k0_pay6
  simp only [mulf_apply, subf_apply, broadcast_apply, shapeCast_self, mm_S256x512_S512x512]
  rfl

theorem egen2_at (p : Fin 256) (n : Fin 512) :
    k0_pay16 x1 x9 (k0_pay7 w12) (ix2 p n) = egen2 (RR p) WW n := by
  unfold k0_pay16 k0_pay7
  simp only [mulf_apply, subf_apply, broadcast_apply, shapeCast_self, mm_S256x256_S512x256]
  rfl

theorem edisc2_at (p : Fin 256) (n : Fin 512) :
    k0_pay17 x4 x9 (k0_pay9 w14) (ix2 p n) = edisc2 (RR p) WW n := by
  unfold k0_pay17 k0_pay9
  simp only [mulf_apply, subf_apply, broadcast_apply, shapeCast_self, mm_S256x512_S512x512]
  rfl

theorem edisc3_at (p : Fin 256) (n : Fin 256) :
    k0_pay18 x1 x8 (k0_pay10 w15) (ix2 p n) = edisc3 (RR p) WW n := by
  unfold k0_pay18 k0_pay10
  simp only [mulf_apply, subf_apply, broadcast_apply, shapeCast_self, mm_S256x512_S256x512]
  rfl

/-! ## The two total inputs, in the parts the body keeps -/

/-- The negated sum of layer one's two errors. -/
theorem negsum1_at (p : Fin 256) (n : Fin 512) :
    k0_pay19 x0 x5 x8 (k0_pay6 w11) (k0_pay8 w13) (ix2 p n) = -(egen1 (RR p) WW n + edisc1 (RR p) WW n) := by
  unfold k0_pay19 k0_pay8
  simp only [mulf_apply, subf_apply, addf_apply, broadcast_apply, shapeCast_self, mm_S256x1024_S512x1024, egen1_at x0 x1 x2 x3 x4 x5 x6 x7 x8 x9 w10 w11 w12 w13 w14 w15 w16 w17 w18 w19,
    zero_word, zero_sub]
  rfl

/-- The generative error of the input layer carried back through its feedback weights. -/
theorem back0_at (p : Fin 256) (n : Fin 512) :
    k0_pay20 x0 x4 (k0_pay5 w10) (k0_pay11 w16) (ix2 p n) = mv (egen0 (RR p) WW) (WW).Eg0 n := by
  unfold k0_pay20 k0_pay5 k0_pay11
  simp only [mulf_apply, subf_apply, broadcast_apply, shapeCast_self, truncf_apply, mm_S256x1024_S512x1024,
    mm_S256x512_S1024x512]
  rfl

/-! ## Layer one's step -/

local notation "E2" => k0_pay17 x4 x9 (k0_pay9 w14)
local notation "N1" => k0_pay19 x0 x5 x8 (k0_pay6 w11) (k0_pay8 w13)
local notation "B0" => k0_pay20 x0 x4 (k0_pay5 w10) (k0_pay11 w16)

theorem j1n_at (p : Fin 256) (n : Fin 512) :
    k0_pay21 x2 (k0_pay13 w18) E2 N1 B0 (ix2 p n) = j1n (RR p) WW n := by
  unfold k0_pay21 k0_pay13
  simp only [mulf_apply, addf_apply, broadcast_apply, shapeCast_self, truncf_apply, mm_S256x512_S512x512,
    edisc2_at x0 x1 x2 x3 x4 x5 x6 x7 x8 x9 w10 w11 w12 w13 w14 w15 w16 w17 w18 w19, negsum1_at x0 x1 x2 x3 x4 x5 x6 x7 x8 x9 w10 w11 w12 w13 w14 w15 w16 w17 w18 w19, back0_at x0 x1 x2 x3 x4 x5 x6 x7 x8 x9 w10 w11 w12 w13 w14 w15 w16 w17 w18 w19]
  rfl

theorem v1p_at (p : Fin 256) (n : Fin 512) :
    k0_pay22 x2 x3 (k0_pay13 w18) E2 N1 B0 (ix2 p n) = v1p (RR p) WW n := by
  unfold k0_pay22
  simp only [mulf_apply, addf_apply, subf_apply, broadcast_apply, j1n_at x0 x1 x2 x3 x4 x5 x6 x7 x8 x9 w10 w11 w12 w13 w14 w15 w16 w17 w18 w19, zero_word, zero_sub]
  rfl

theorem s1n_at (p : Fin 256) (n : Fin 512) :
    k0_pay23 x2 x3 (k0_pay13 w18) E2 N1 B0 (ix2 p n) = spike (v1p (RR p) WW n) := by
  unfold k0_pay23
  simp only [sitofp_extui_eq_uitofp]
  show FloatOps.uitofp .f32 (FloatOps.cmpf .ogt (k0_pay22 x2 x3 (k0_pay13 w18) E2 N1 B0 (ix2 p n)) _) = _
  rw [v1p_at x0 x1 x2 x3 x4 x5 x6 x7 x8 x9 w10 w11 w12 w13 w14 w15 w16 w17 w18 w19]
  rfl

theorem v1n_at (p : Fin 256) (n : Fin 512) :
    k0_pay24 x2 x3 (k0_pay13 w18) E2 N1 B0 (ix2 p n) = vNext (v1p (RR p) WW n) := by
  unfold k0_pay24
  simp only [mulf_apply, subf_apply, broadcast_apply, v1p_at x0 x1 x2 x3 x4 x5 x6 x7 x8 x9 w10 w11 w12 w13 w14 w15 w16 w17 w18 w19, s1n_at x0 x1 x2 x3 x4 x5 x6 x7 x8 x9 w10 w11 w12 w13 w14 w15 w16 w17 w18 w19]
  rfl

theorem x1n_at (p : Fin 256) (n : Fin 512) :
    k0_pay25 x2 x3 x5 (k0_pay13 w18) E2 N1 B0 (ix2 p n) = xNext ((RR p).x1 n) (v1p (RR p) WW n) := by
  unfold k0_pay25
  simp only [addf_apply, subf_apply, divf_apply, broadcast_apply, s1n_at x0 x1 x2 x3 x4 x5 x6 x7 x8 x9 w10 w11 w12 w13 w14 w15 w16 w17 w18 w19, zero_word, zero_sub]
  rfl

/-! ## Layer two's step -/

local notation "E1" => k0_pay15 x5 x8 (k0_pay6 w11)
local notation "G2" => k0_pay16 x1 x9 (k0_pay7 w12)
local notation "D3" => k0_pay18 x1 x8 (k0_pay10 w15)
local notation "J2" => k0_pay26 x6 (k0_pay12 w17) (k0_pay14 w19) E1 G2 E2 D3

theorem j2n_at (p : Fin 256) (n : Fin 512) :
    J2 (ix2 p n) = j2n (RR p) WW n := by
  unfold k0_pay26 k0_pay12 k0_pay14
  simp only [mulf_apply, addf_apply, subf_apply, broadcast_apply, shapeCast_self, truncf_apply, mm_S256x512_S512x512,
    mm_S256x256_S512x256, egen1_at x0 x1 x2 x3 x4 x5 x6 x7 x8 x9 w10 w11 w12 w13 w14 w15 w16 w17 w18 w19, egen2_at x0 x1 x2 x3 x4 x5 x6 x7 x8 x9 w10 w11 w12 w13 w14 w15 w16 w17 w18 w19, edisc2_at x0 x1 x2 x3 x4 x5 x6 x7 x8 x9 w10 w11 w12 w13 w14 w15 w16 w17 w18 w19, edisc3_at x0 x1 x2 x3 x4 x5 x6 x7 x8 x9 w10 w11 w12 w13 w14 w15 w16 w17 w18 w19, zero_word, zero_sub]
  rfl

theorem v2p_at (p : Fin 256) (n : Fin 512) :
    k0_pay1 x7 J2 (k0_pay27 (F := Ideal)) (ix2 p n) = v2p (RR p) WW n := by
  unfold k0_pay1 k0_pay27
  simp only [mulf_apply, addf_apply, subf_apply, broadcast_apply, j2n_at x0 x1 x2 x3 x4 x5 x6 x7 x8 x9 w10 w11 w12 w13 w14 w15 w16 w17 w18 w19, zero_word, zero_sub]
  rfl

theorem s2n_at (p : Fin 256) (n : Fin 512) :
    k0_pay2 x7 J2 (k0_pay27 (F := Ideal)) (ix2 p n) = spike (v2p (RR p) WW n) := by
  unfold k0_pay2
  simp only [sitofp_extui_eq_uitofp]
  show FloatOps.uitofp .f32 (FloatOps.cmpf .ogt (k0_pay1 x7 J2 (k0_pay27 (F := Ideal)) (ix2 p n)) _) = _
  rw [v2p_at x0 x1 x2 x3 x4 x5 x6 x7 x8 x9 w10 w11 w12 w13 w14 w15 w16 w17 w18 w19]
  rfl

theorem v2n_at (p : Fin 256) (n : Fin 512) :
    k0_pay3 x7 J2 (k0_pay27 (F := Ideal)) (ix2 p n) = vNext (v2p (RR p) WW n) := by
  unfold k0_pay3
  simp only [mulf_apply, subf_apply, broadcast_apply, v2p_at x0 x1 x2 x3 x4 x5 x6 x7 x8 x9 w10 w11 w12 w13 w14 w15 w16 w17 w18 w19, s2n_at x0 x1 x2 x3 x4 x5 x6 x7 x8 x9 w10 w11 w12 w13 w14 w15 w16 w17 w18 w19]
  rfl

theorem x2n_at (p : Fin 256) (n : Fin 512) :
    k0_pay4 x7 x9 J2 (k0_pay27 (F := Ideal)) (ix2 p n) = xNext ((RR p).x2 n) (v2p (RR p) WW n) := by
  unfold k0_pay4
  simp only [addf_apply, subf_apply, divf_apply, broadcast_apply, s2n_at x0 x1 x2 x3 x4 x5 x6 x7 x8 x9 w10 w11 w12 w13 w14 w15 w16 w17 w18 w19, zero_word, zero_sub]
  rfl

end Cert.KernelIdeal.Body

end
-- ==== Proof.KerBlocks.lean ====
/-
  From the blocks to the whole array.

  The body's eight stores tile the point's 256 × 4096 result block, and each stored piece is the row-wise result
  restricted to its 512 columns: so the block is the result function of the point's blocks. Point `t` holds batch rows
  `256 t … 256 t + 255` of every batch array and the whole of every weight matrix, so the block it writes back is the block
  of the whole result array at those rows; the 32 points' blocks cover the array, which therefore ends as the row-wise
  result of the arguments.
-/
import proofs.«171067_j9285719294381_2_alg».proof.Proof.Gen.KernelIdeal.Value
import proofs.«171067_j9285719294381_2_alg».proof.Proof.KerBody
import Idealize.ShloMosaic.Lib.StableHlo.Run

noncomputable section

namespace Cert.KernelIdeal.Blocks

open Cert.KernelIdeal Cert.KernelIdeal.Gen Cert.KernelIdeal.Body Idealize.ShloMosaic Idealize.ShloMosaic.TcCoe
open Idealize.SL.Sem Idealize.ShloMosaic.ValueIdx Cert.Lif Idealize.ShloMosaic.StableHlo
open Idealize.ShloMosaic.Pipeline (Dat)

theorem hz : (![0, 0] : Fin 2 → Nat) = fun _ => 0 := funext fun a => by fin_cases a <;> rfl

/-! ## The body's block is the result function of the point's blocks -/

section Body

variable (x0 : Vec Ideal S256x1024 .f32) (x1 : Vec Ideal S256x256 .f32)
  (x2 x3 x4 x5 x6 x7 x8 x9 : Vec Ideal S256x512 .f32)
  (w10 : Vec Ideal S1024x512 .bf16) (w11 : Vec Ideal S512x512 .bf16) (w12 : Vec Ideal S512x256 .bf16)
  (w13 : Vec Ideal S512x1024 .bf16) (w14 : Vec Ideal S512x512 .bf16) (w15 : Vec Ideal S256x512 .bf16)
  (w16 : Vec Ideal S512x1024 .bf16) (w17 w18 : Vec Ideal S512x512 .bf16) (w19 : Vec Ideal S512x256 .bf16)

theorem pc14 (x : S256x512.Idx) :
    k0_pay2 x7 (k0_pay26 x6 (k0_pay12 w17) (k0_pay14 w19) (k0_pay15 x5 x8 (k0_pay6 w11)) (k0_pay16 x1 x9 (k0_pay7 w12)) (k0_pay17 x4 x9 (k0_pay9 w14)) (k0_pay18 x1 x8 (k0_pay10 w15))) (k0_pay27 (F := Ideal)) x = G x0 x1 x2 x3 x4 x5 x6 x7 x8 x9 w10 w11 w12 w13 w14 w15 w16 w17 w18 w19 (r0_14.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_14.emb (ix2 p n)) p ⟨7, by decide⟩ n
    (by show 0 + 1 * p.val = p.val; omega) (by show 3584 + 1 * n.val = 512 * 7 + n.val; omega)]
  exact s2n_at x0 x1 x2 x3 x4 x5 x6 x7 x8 x9 w10 w11 w12 w13 w14 w15 w16 w17 w18 w19 p n

theorem pc13 (x : S256x512.Idx) :
    k0_pay4 x7 x9 (k0_pay26 x6 (k0_pay12 w17) (k0_pay14 w19) (k0_pay15 x5 x8 (k0_pay6 w11)) (k0_pay16 x1 x9 (k0_pay7 w12)) (k0_pay17 x4 x9 (k0_pay9 w14)) (k0_pay18 x1 x8 (k0_pay10 w15))) (k0_pay27 (F := Ideal)) x = G x0 x1 x2 x3 x4 x5 x6 x7 x8 x9 w10 w11 w12 w13 w14 w15 w16 w17 w18 w19 (r0_13.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_13.emb (ix2 p n)) p ⟨6, by decide⟩ n
    (by show 0 + 1 * p.val = p.val; omega) (by show 3072 + 1 * n.val = 512 * 6 + n.val; omega)]
  exact x2n_at x0 x1 x2 x3 x4 x5 x6 x7 x8 x9 w10 w11 w12 w13 w14 w15 w16 w17 w18 w19 p n

theorem pc12 (x : S256x512.Idx) :
    k0_pay3 x7 (k0_pay26 x6 (k0_pay12 w17) (k0_pay14 w19) (k0_pay15 x5 x8 (k0_pay6 w11)) (k0_pay16 x1 x9 (k0_pay7 w12)) (k0_pay17 x4 x9 (k0_pay9 w14)) (k0_pay18 x1 x8 (k0_pay10 w15))) (k0_pay27 (F := Ideal)) x = G x0 x1 x2 x3 x4 x5 x6 x7 x8 x9 w10 w11 w12 w13 w14 w15 w16 w17 w18 w19 (r0_12.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_12.emb (ix2 p n)) p ⟨5, by decide⟩ n
    (by show 0 + 1 * p.val = p.val; omega) (by show 2560 + 1 * n.val = 512 * 5 + n.val; omega)]
  exact v2n_at x0 x1 x2 x3 x4 x5 x6 x7 x8 x9 w10 w11 w12 w13 w14 w15 w16 w17 w18 w19 p n

theorem pc11 (x : S256x512.Idx) :
    (k0_pay26 x6 (k0_pay12 w17) (k0_pay14 w19) (k0_pay15 x5 x8 (k0_pay6 w11)) (k0_pay16 x1 x9 (k0_pay7 w12)) (k0_pay17 x4 x9 (k0_pay9 w14)) (k0_pay18 x1 x8 (k0_pay10 w15))) x = G x0 x1 x2 x3 x4 x5 x6 x7 x8 x9 w10 w11 w12 w13 w14 w15 w16 w17 w18 w19 (r0_11.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_11.emb (ix2 p n)) p ⟨4, by decide⟩ n
    (by show 0 + 1 * p.val = p.val; omega) (by show 2048 + 1 * n.val = 512 * 4 + n.val; omega)]
  exact j2n_at x0 x1 x2 x3 x4 x5 x6 x7 x8 x9 w10 w11 w12 w13 w14 w15 w16 w17 w18 w19 p n

theorem pc10 (x : S256x512.Idx) :
    k0_pay23 x2 x3 (k0_pay13 w18) (k0_pay17 x4 x9 (k0_pay9 w14)) (k0_pay19 x0 x5 x8 (k0_pay6 w11) (k0_pay8 w13)) (k0_pay20 x0 x4 (k0_pay5 w10) (k0_pay11 w16)) x = G x0 x1 x2 x3 x4 x5 x6 x7 x8 x9 w10 w11 w12 w13 w14 w15 w16 w17 w18 w19 (r0_10.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_10.emb (ix2 p n)) p ⟨3, by decide⟩ n
    (by show 0 + 1 * p.val = p.val; omega) (by show 1536 + 1 * n.val = 512 * 3 + n.val; omega)]
  exact s1n_at x0 x1 x2 x3 x4 x5 x6 x7 x8 x9 w10 w11 w12 w13 w14 w15 w16 w17 w18 w19 p n

theorem pc9 (x : S256x512.Idx) :
    k0_pay25 x2 x3 x5 (k0_pay13 w18) (k0_pay17 x4 x9 (k0_pay9 w14)) (k0_pay19 x0 x5 x8 (k0_pay6 w11) (k0_pay8 w13)) (k0_pay20 x0 x4 (k0_pay5 w10) (k0_pay11 w16)) x = G x0 x1 x2 x3 x4 x5 x6 x7 x8 x9 w10 w11 w12 w13 w14 w15 w16 w17 w18 w19 (r0_9.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_9.emb (ix2 p n)) p ⟨2, by decide⟩ n
    (by show 0 + 1 * p.val = p.val; omega) (by show 1024 + 1 * n.val = 512 * 2 + n.val; omega)]
  exact x1n_at x0 x1 x2 x3 x4 x5 x6 x7 x8 x9 w10 w11 w12 w13 w14 w15 w16 w17 w18 w19 p n

theorem pc8 (x : S256x512.Idx) :
    k0_pay24 x2 x3 (k0_pay13 w18) (k0_pay17 x4 x9 (k0_pay9 w14)) (k0_pay19 x0 x5 x8 (k0_pay6 w11) (k0_pay8 w13)) (k0_pay20 x0 x4 (k0_pay5 w10) (k0_pay11 w16)) x = G x0 x1 x2 x3 x4 x5 x6 x7 x8 x9 w10 w11 w12 w13 w14 w15 w16 w17 w18 w19 (r0_8.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_8.emb (ix2 p n)) p ⟨1, by decide⟩ n
    (by show 0 + 1 * p.val = p.val; omega) (by show 512 + 1 * n.val = 512 * 1 + n.val; omega)]
  exact v1n_at x0 x1 x2 x3 x4 x5 x6 x7 x8 x9 w10 w11 w12 w13 w14 w15 w16 w17 w18 w19 p n

theorem pc7 (x : S256x512.Idx) :
    k0_pay21 x2 (k0_pay13 w18) (k0_pay17 x4 x9 (k0_pay9 w14)) (k0_pay19 x0 x5 x8 (k0_pay6 w11) (k0_pay8 w13)) (k0_pay20 x0 x4 (k0_pay5 w10) (k0_pay11 w16)) x = G x0 x1 x2 x3 x4 x5 x6 x7 x8 x9 w10 w11 w12 w13 w14 w15 w16 w17 w18 w19 (r0_7.emb x) := by
  obtain ⟨p, n, rfl⟩ : ∃ (p : Fin 256) (n : Fin 512), x = ix2 p n := ⟨x 0, x 1, eq_ix2 x⟩
  rw [G_at x0 x1 x2 x3 x4 x5 x6 x7 x8 x9 w10 w11 w12 w13 w14 w15 w16 w17 w18 w19 (r0_7.emb (ix2 p n)) p ⟨0, by decide⟩ n
    (by show 0 + 1 * p.val = p.val; omega) (by show 0 + 1 * n.val = 512 * 0 + n.val; omega)]
  exact j1n_at x0 x1 x2 x3 x4 x5 x6 x7 x8 x9 w10 w11 w12 w13 w14 w15 w16 w17 w18 w19 p n

/-- The eight stores together leave the result function of the blocks. -/
theorem out_eq_G : out0_20 x0 x1 x2 x3 x4 x5 x6 x7 x8 x9 w10 w11 w12 w13 w14 w15 w16 w17 w18 w19 = G x0 x1 x2 x3 x4 x5 x6 x7 x8 x9 w10 w11 w12 w13 w14 w15 w16 w17 w18 w19 := by
  funext y
  unfold out0_20
  simp only [View.ld_unit_zero (S := S256x1024) hz, View.ld_unit_zero (S := S256x256) hz, View.ld_unit_zero (S := S256x512) hz, View.ld_unit_zero (S := S1024x512) hz, View.ld_unit_zero (S := S512x512) hz, View.ld_unit_zero (S := S512x256) hz, View.ld_unit_zero (S := S512x1024) hz]
  refine View.canon_apply_of_pieces (Val := Elt Ideal) (S := S256x4096) (e := .f32) (G x0 x1 x2 x3 x4 x5 x6 x7 x8 x9 w10 w11 w12 w13 w14 w15 w16 w17 w18 w19) _ ?_ y (cover0_20 _ _ _ _ _ _ _ _ y)
  intro pc hpc
  simp only [List.mem_cons, List.not_mem_nil, or_false] at hpc
  rcases hpc with rfl | rfl | rfl | rfl | rfl | rfl | rfl | rfl
  · exact pc14 x0 x1 x2 x3 x4 x5 x6 x7 x8 x9 w10 w11 w12 w13 w14 w15 w16 w17 w18 w19
  · exact pc13 x0 x1 x2 x3 x4 x5 x6 x7 x8 x9 w10 w11 w12 w13 w14 w15 w16 w17 w18 w19
  · exact pc12 x0 x1 x2 x3 x4 x5 x6 x7 x8 x9 w10 w11 w12 w13 w14 w15 w16 w17 w18 w19
  · exact pc11 x0 x1 x2 x3 x4 x5 x6 x7 x8 x9 w10 w11 w12 w13 w14 w15 w16 w17 w18 w19
  · exact pc10 x0 x1 x2 x3 x4 x5 x6 x7 x8 x9 w10 w11 w12 w13 w14 w15 w16 w17 w18 w19
  · exact pc9 x0 x1 x2 x3 x4 x5 x6 x7 x8 x9 w10 w11 w12 w13 w14 w15 w16 w17 w18 w19
  · exact pc8 x0 x1 x2 x3 x4 x5 x6 x7 x8 x9 w10 w11 w12 w13 w14 w15 w16 w17 w18 w19
  · exact pc7 x0 x1 x2 x3 x4 x5 x6 x7 x8 x9 w10 w11 w12 w13 w14 w15 w16 w17 w18 w19

end Body

/-! ## Where each window's block sits -/

theorem idx_batch0 : ∀ t : Fin cfg0.N, win0_0.index t (0 : Fin 2) = t.val ∧ win0_0.index t (1 : Fin 2) = 0 :=
  (by decide +kernel : ∀ t : Fin grid0.N, _)
theorem idx_batch1 : ∀ t : Fin cfg0.N, win0_1.index t (0 : Fin 2) = t.val ∧ win0_1.index t (1 : Fin 2) = 0 :=
  (by decide +kernel : ∀ t : Fin grid0.N, _)
theorem idx_batch2 : ∀ t : Fin cfg0.N, win0_2.index t (0 : Fin 2) = t.val ∧ win0_2.index t (1 : Fin 2) = 0 :=
  (by decide +kernel : ∀ t : Fin grid0.N, _)
theorem idx_batch3 : ∀ t : Fin cfg0.N, win0_3.index t (0 : Fin 2) = t.val ∧ win0_3.index t (1 : Fin 2) = 0 :=
  (by decide +kernel : ∀ t : Fin grid0.N, _)
theorem idx_batch4 : ∀ t : Fin cfg0.N, win0_4.index t (0 : Fin 2) = t.val ∧ win0_4.index t (1 : Fin 2) = 0 :=
  (by decide +kernel : ∀ t : Fin grid0.N, _)
theorem idx_batch5 : ∀ t : Fin cfg0.N, win0_5.index t (0 : Fin 2) = t.val ∧ win0_5.index t (1 : Fin 2) = 0 :=
  (by decide +kernel : ∀ t : Fin grid0.N, _)
theorem idx_batch6 : ∀ t : Fin cfg0.N, win0_6.index t (0 : Fin 2) = t.val ∧ win0_6.index t (1 : Fin 2) = 0 :=
  (by decide +kernel : ∀ t : Fin grid0.N, _)
theorem idx_batch7 : ∀ t : Fin cfg0.N, win0_7.index t (0 : Fin 2) = t.val ∧ win0_7.index t (1 : Fin 2) = 0 :=
  (by decide +kernel : ∀ t : Fin grid0.N, _)
theorem idx_batch8 : ∀ t : Fin cfg0.N, win0_8.index t (0 : Fin 2) = t.val ∧ win0_8.index t (1 : Fin 2) = 0 :=
  (by decide +kernel : ∀ t : Fin grid0.N, _)
theorem idx_batch9 : ∀ t : Fin cfg0.N, win0_9.index t (0 : Fin 2) = t.val ∧ win0_9.index t (1 : Fin 2) = 0 :=
  (by decide +kernel : ∀ t : Fin grid0.N, _)

theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 2) = 0 ∧ win0_18.index t (1 : Fin 2) = 0 :=
  (by decide +kernel : ∀ t : Fin grid0.N, _)
theorem idx_w19 : ∀ t : Fin cfg0.N, win0_19.index t (0 : Fin 2) = 0 ∧ win0_19.index t (1 : Fin 2) = 0 :=
  (by decide +kernel : ∀ t : Fin grid0.N, _)

theorem idx_out : ∀ t : Fin cfg0.N, win0_20.index t (0 : Fin 2) = t.val ∧ win0_20.index t (1 : Fin 2) = 0 :=
  (by decide +kernel : ∀ t : Fin grid0.N, _)

variable (m : (ℓ : Loc nD τ sig) → Buf (Elt Ideal) ℓ) (ρ : Dev nD → PrngReg)

/-- Row `p` of batch window 0's block at point `t` is row `256 t + p` of its array. -/
theorem blk_row0 (c : Dev nD) (t : Fin cfg0.N) (p : Fin 256) (b : Fin 8192) (hb : b.val = 256 * t.val + p.val) :
    row (iblk m c 0 t) p = row (V m c main_arg0) b := by
  funext k
  show V m c main_arg0 (((cfg0.win 0).blk t).view.emb (ix2 p k)) = V m c main_arg0 (ix2 b k)
  refine congrArg _ (funext fun a => Fin.ext ?_)
  obtain ⟨e0, e1⟩ := idx_batch0 t
  match a with
  | ⟨0, _⟩ => show win0_0.index t (0 : Fin 2) * 256 + 1 * p.val = b.val; omega
  | ⟨1, _⟩ => show win0_0.index t (1 : Fin 2) * 1024 + 1 * k.val = k.val; omega

/-- Row `p` of batch window 1's block at point `t` is row `256 t + p` of its array. -/
theorem blk_row1 (c : Dev nD) (t : Fin cfg0.N) (p : Fin 256) (b : Fin 8192) (hb : b.val = 256 * t.val + p.val) :
    row (iblk m c 1 t) p = row (V m c main_arg1) b := by
  funext k
  show V m c main_arg1 (((cfg0.win 1).blk t).view.emb (ix2 p k)) = V m c main_arg1 (ix2 b k)
  refine congrArg _ (funext fun a => Fin.ext ?_)
  obtain ⟨e0, e1⟩ := idx_batch1 t
  match a with
  | ⟨0, _⟩ => show win0_1.index t (0 : Fin 2) * 256 + 1 * p.val = b.val; omega
  | ⟨1, _⟩ => show win0_1.index t (1 : Fin 2) * 256 + 1 * k.val = k.val; omega

/-- Row `p` of batch window 2's block at point `t` is row `256 t + p` of its array. -/
theorem blk_row2 (c : Dev nD) (t : Fin cfg0.N) (p : Fin 256) (b : Fin 8192) (hb : b.val = 256 * t.val + p.val) :
    row (iblk m c 2 t) p = row (V m c main_arg2) b := by
  funext k
  show V m c main_arg2 (((cfg0.win 2).blk t).view.emb (ix2 p k)) = V m c main_arg2 (ix2 b k)
  refine congrArg _ (funext fun a => Fin.ext ?_)
  obtain ⟨e0, e1⟩ := idx_batch2 t
  match a with
  | ⟨0, _⟩ => show win0_2.index t (0 : Fin 2) * 256 + 1 * p.val = b.val; omega
  | ⟨1, _⟩ => show win0_2.index t (1 : Fin 2) * 512 + 1 * k.val = k.val; omega

/-- Row `p` of batch window 3's block at point `t` is row `256 t + p` of its array. -/
theorem blk_row3 (c : Dev nD) (t : Fin cfg0.N) (p : Fin 256) (b : Fin 8192) (hb : b.val = 256 * t.val + p.val) :
    row (iblk m c 3 t) p = row (V m c main_arg3) b := by
  funext k
  show V m c main_arg3 (((cfg0.win 3).blk t).view.emb (ix2 p k)) = V m c main_arg3 (ix2 b k)
  refine congrArg _ (funext fun a => Fin.ext ?_)
  obtain ⟨e0, e1⟩ := idx_batch3 t
  match a with
  | ⟨0, _⟩ => show win0_3.index t (0 : Fin 2) * 256 + 1 * p.val = b.val; omega
  | ⟨1, _⟩ => show win0_3.index t (1 : Fin 2) * 512 + 1 * k.val = k.val; omega

/-- Row `p` of batch window 4's block at point `t` is row `256 t + p` of its array. -/
theorem blk_row4 (c : Dev nD) (t : Fin cfg0.N) (p : Fin 256) (b : Fin 8192) (hb : b.val = 256 * t.val + p.val) :
    row (iblk m c 4 t) p = row (V m c main_arg4) b := by
  funext k
  show V m c main_arg4 (((cfg0.win 4).blk t).view.emb (ix2 p k)) = V m c main_arg4 (ix2 b k)
  refine congrArg _ (funext fun a => Fin.ext ?_)
  obtain ⟨e0, e1⟩ := idx_batch4 t
  match a with
  | ⟨0, _⟩ => show win0_4.index t (0 : Fin 2) * 256 + 1 * p.val = b.val; omega
  | ⟨1, _⟩ => show win0_4.index t (1 : Fin 2) * 512 + 1 * k.val = k.val; omega

/-- Row `p` of batch window 5's block at point `t` is row `256 t + p` of its array. -/
theorem blk_row5 (c : Dev nD) (t : Fin cfg0.N) (p : Fin 256) (b : Fin 8192) (hb : b.val = 256 * t.val + p.val) :
    row (iblk m c 5 t) p = row (V m c main_arg5) b := by
  funext k
  show V m c main_arg5 (((cfg0.win 5).blk t).view.emb (ix2 p k)) = V m c main_arg5 (ix2 b k)
  refine congrArg _ (funext fun a => Fin.ext ?_)
  obtain ⟨e0, e1⟩ := idx_batch5 t
  match a with
  | ⟨0, _⟩ => show win0_5.index t (0 : Fin 2) * 256 + 1 * p.val = b.val; omega
  | ⟨1, _⟩ => show win0_5.index t (1 : Fin 2) * 512 + 1 * k.val = k.val; omega

/-- Row `p` of batch window 6's block at point `t` is row `256 t + p` of its array. -/
theorem blk_row6 (c : Dev nD) (t : Fin cfg0.N) (p : Fin 256) (b : Fin 8192) (hb : b.val = 256 * t.val + p.val) :
    row (iblk m c 6 t) p = row (V m c main_arg6) b := by
  funext k
  show V m c main_arg6 (((cfg0.win 6).blk t).view.emb (ix2 p k)) = V m c main_arg6 (ix2 b k)
  refine congrArg _ (funext fun a => Fin.ext ?_)
  obtain ⟨e0, e1⟩ := idx_batch6 t
  match a with
  | ⟨0, _⟩ => show win0_6.index t (0 : Fin 2) * 256 + 1 * p.val = b.val; omega
  | ⟨1, _⟩ => show win0_6.index t (1 : Fin 2) * 512 + 1 * k.val = k.val; omega

/-- Row `p` of batch window 7's block at point `t` is row `256 t + p` of its array. -/
theorem blk_row7 (c : Dev nD) (t : Fin cfg0.N) (p : Fin 256) (b : Fin 8192) (hb : b.val = 256 * t.val + p.val) :
    row (iblk m c 7 t) p = row (V m c main_arg7) b := by
  funext k
  show V m c main_arg7 (((cfg0.win 7).blk t).view.emb (ix2 p k)) = V m c main_arg7 (ix2 b k)
  refine congrArg _ (funext fun a => Fin.ext ?_)
  obtain ⟨e0, e1⟩ := idx_batch7 t
  match a with
  | ⟨0, _⟩ => show win0_7.index t (0 : Fin 2) * 256 + 1 * p.val = b.val; omega
  | ⟨1, _⟩ => show win0_7.index t (1 : Fin 2) * 512 + 1 * k.val = k.val; omega

/-- Row `p` of batch window 8's block at point `t` is row `256 t + p` of its array. -/
theorem blk_row8 (c : Dev nD) (t : Fin cfg0.N) (p : Fin 256) (b : Fin 8192) (hb : b.val = 256 * t.val + p.val) :
    row (iblk m c 8 t) p = row (V m c main_arg8) b := by
  funext k
  show V m c main_arg8 (((cfg0.win 8).blk t).view.emb (ix2 p k)) = V m c main_arg8 (ix2 b k)
  refine congrArg _ (funext fun a => Fin.ext ?_)
  obtain ⟨e0, e1⟩ := idx_batch8 t
  match a with
  | ⟨0, _⟩ => show win0_8.index t (0 : Fin 2) * 256 + 1 * p.val = b.val; omega
  | ⟨1, _⟩ => show win0_8.index t (1 : Fin 2) * 512 + 1 * k.val = k.val; omega

/-- Row `p` of batch window 9's block at point `t` is row `256 t + p` of its array. -/
theorem blk_row9 (c : Dev nD) (t : Fin cfg0.N) (p : Fin 256) (b : Fin 8192) (hb : b.val = 256 * t.val + p.val) :
    row (iblk m c 9 t) p = row (V m c main_arg9) b := by
  funext k
  show V m c main_arg9 (((cfg0.win 9).blk t).view.emb (ix2 p k)) = V m c main_arg9 (ix2 b k)
  refine congrArg _ (funext fun a => Fin.ext ?_)
  obtain ⟨e0, e1⟩ := idx_batch9 t
  match a with
  | ⟨0, _⟩ => show win0_9.index t (0 : Fin 2) * 256 + 1 * p.val = b.val; omega
  | ⟨1, _⟩ => show win0_9.index t (1 : Fin 2) * 512 + 1 * k.val = k.val; omega

/-- Weight window 10's block at any point is its whole array: the argument rounded to the product's input format, a
    change of format that is the identity on the extended reals. -/
theorem blk_w10 (c : Dev nD) (t : Fin cfg0.N) :
    (iblk m c 10 t : S1024x512.Idx → EReal) = m ((c : Thread nD τ).loc main_arg10) := by
  have e : (V m c main_v0 : S1024x512.Idx → EReal) = m ((c : Thread nD τ).loc main_arg10) := by
    dsimp only [Gen.V, Gen.hostOps0]; after_results; rfl
  rw [← e]
  funext y
  show V m c main_v0 (((cfg0.win 10).blk t).view.emb y) = V m c main_v0 y
  refine congrArg _ (funext fun a => Fin.ext ?_)
  obtain ⟨e0, e1⟩ := idx_w10 t
  match a with
  | ⟨0, _⟩ => show win0_10.index t (0 : Fin 2) * 1024 + 1 * (y 0).val = (y 0).val; omega
  | ⟨1, _⟩ => show win0_10.index t (1 : Fin 2) * 512 + 1 * (y 1).val = (y 1).val; omega

/-- Weight window 11's block at any point is its whole array: the argument rounded to the product's input format, a
    change of format that is the identity on the extended reals. -/
theorem blk_w11 (c : Dev nD) (t : Fin cfg0.N) :
    (iblk m c 11 t : S512x512.Idx → EReal) = m ((c : Thread nD τ).loc main_arg11) := by
  have e : (V m c main_v1 : S512x512.Idx → EReal) = m ((c : Thread nD τ).loc main_arg11) := by
    dsimp only [Gen.V, Gen.hostOps0]; after_results; rfl
  rw [← e]
  funext y
  show V m c main_v1 (((cfg0.win 11).blk t).view.emb y) = V m c main_v1 y
  refine congrArg _ (funext fun a => Fin.ext ?_)
  obtain ⟨e0, e1⟩ := idx_w11 t
  match a with
  | ⟨0, _⟩ => show win0_11.index t (0 : Fin 2) * 512 + 1 * (y 0).val = (y 0).val; omega
  | ⟨1, _⟩ => show win0_11.index t (1 : Fin 2) * 512 + 1 * (y 1).val = (y 1).val; omega

/-- Weight window 12's block at any point is its whole array: the argument rounded to the product's input format, a
    change of format that is the identity on the extended reals. -/
theorem blk_w12 (c : Dev nD) (t : Fin cfg0.N) :
    (iblk m c 12 t : S512x256.Idx → EReal) = m ((c : Thread nD τ).loc main_arg12) := by
  have e : (V m c main_v2 : S512x256.Idx → EReal) = m ((c : Thread nD τ).loc main_arg12) := by
    dsimp only [Gen.V, Gen.hostOps0]; after_results; rfl
  rw [← e]
  funext y
  show V m c main_v2 (((cfg0.win 12).blk t).view.emb y) = V m c main_v2 y
  refine congrArg _ (funext fun a => Fin.ext ?_)
  obtain ⟨e0, e1⟩ := idx_w12 t
  match a with
  | ⟨0, _⟩ => show win0_12.index t (0 : Fin 2) * 512 + 1 * (y 0).val = (y 0).val; omega
  | ⟨1, _⟩ => show win0_12.index t (1 : Fin 2) * 256 + 1 * (y 1).val = (y 1).val; omega

/-- Weight window 13's block at any point is its whole array: the argument rounded to the product's input format, a
    change of format that is the identity on the extended reals. -/
theorem blk_w13 (c : Dev nD) (t : Fin cfg0.N) :
    (iblk m c 13 t : S512x1024.Idx → EReal) = m ((c : Thread nD τ).loc main_arg13) := by
  have e : (V m c main_v3 : S512x1024.Idx → EReal) = m ((c : Thread nD τ).loc main_arg13) := by
    dsimp only [Gen.V, Gen.hostOps0]; after_results; rfl
  rw [← e]
  funext y
  show V m c main_v3 (((cfg0.win 13).blk t).view.emb y) = V m c main_v3 y
  refine congrArg _ (funext fun a => Fin.ext ?_)
  obtain ⟨e0, e1⟩ := idx_w13 t
  match a with
  | ⟨0, _⟩ => show win0_13.index t (0 : Fin 2) * 512 + 1 * (y 0).val = (y 0).val; omega
  | ⟨1, _⟩ => show win0_13.index t (1 : Fin 2) * 1024 + 1 * (y 1).val = (y 1).val; omega

/-- Weight window 14's block at any point is its whole array: the argument rounded to the product's input format, a
    change of format that is the identity on the extended reals. -/
theorem blk_w14 (c : Dev nD) (t : Fin cfg0.N) :
    (iblk m c 14 t : S512x512.Idx → EReal) = m ((c : Thread nD τ).loc main_arg14) := by
  have e : (V m c main_v4 : S512x512.Idx → EReal) = m ((c : Thread nD τ).loc main_arg14) := by
    dsimp only [Gen.V, Gen.hostOps0]; after_results; rfl
  rw [← e]
  funext y
  show V m c main_v4 (((cfg0.win 14).blk t).view.emb y) = V m c main_v4 y
  refine congrArg _ (funext fun a => Fin.ext ?_)
  obtain ⟨e0, e1⟩ := idx_w14 t
  match a with
  | ⟨0, _⟩ => show win0_14.index t (0 : Fin 2) * 512 + 1 * (y 0).val = (y 0).val; omega
  | ⟨1, _⟩ => show win0_14.index t (1 : Fin 2) * 512 + 1 * (y 1).val = (y 1).val; omega

/-- Weight window 15's block at any point is its whole array: the argument rounded to the product's input format, a
    change of format that is the identity on the extended reals. -/
theorem blk_w15 (c : Dev nD) (t : Fin cfg0.N) :
    (iblk m c 15 t : S256x512.Idx → EReal) = m ((c : Thread nD τ).loc main_arg15) := by
  have e : (V m c main_v5 : S256x512.Idx → EReal) = m ((c : Thread nD τ).loc main_arg15) := by
    dsimp only [Gen.V, Gen.hostOps0]; after_results; rfl
  rw [← e]
  funext y
  show V m c main_v5 (((cfg0.win 15).blk t).view.emb y) = V m c main_v5 y
  refine congrArg _ (funext fun a => Fin.ext ?_)
  obtain ⟨e0, e1⟩ := idx_w15 t
  match a with
  | ⟨0, _⟩ => show win0_15.index t (0 : Fin 2) * 256 + 1 * (y 0).val = (y 0).val; omega
  | ⟨1, _⟩ => show win0_15.index t (1 : Fin 2) * 512 + 1 * (y 1).val = (y 1).val; omega

/-- Weight window 16's block at any point is its whole array: the argument rounded to the product's input format, a
    change of format that is the identity on the extended reals. -/
theorem blk_w16 (c : Dev nD) (t : Fin cfg0.N) :
    (iblk m c 16 t : S512x1024.Idx → EReal) = m ((c : Thread nD τ).loc main_arg16) := by
  have e : (V m c main_v6 : S512x1024.Idx → EReal) = m ((c : Thread nD τ).loc main_arg16) := by
    dsimp only [Gen.V, Gen.hostOps0]; after_results; rfl
  rw [← e]
  funext y
  show V m c main_v6 (((cfg0.win 16).blk t).view.emb y) = V m c main_v6 y
  refine congrArg _ (funext fun a => Fin.ext ?_)
  obtain ⟨e0, e1⟩ := idx_w16 t
  match a with
  | ⟨0, _⟩ => show win0_16.index t (0 : Fin 2) * 512 + 1 * (y 0).val = (y 0).val; omega
  | ⟨1, _⟩ => show win0_16.index t (1 : Fin 2) * 1024 + 1 * (y 1).val = (y 1).val; omega

/-- Weight window 17's block at any point is its whole array: the argument rounded to the product's input format, a
    change of format that is the identity on the extended reals. -/
theorem blk_w17 (c : Dev nD) (t : Fin cfg0.N) :
    (iblk m c 17 t : S512x512.Idx → EReal) = m ((c : Thread nD τ).loc main_arg17) := by
  have e : (V m c main_v7 : S512x512.Idx → EReal) = m ((c : Thread nD τ).loc main_arg17) := by
    dsimp only [Gen.V, Gen.hostOps0]; after_results; rfl
  rw [← e]
  funext y
  show V m c main_v7 (((cfg0.win 17).blk t).view.emb y) = V m c main_v7 y
  refine congrArg _ (funext fun a => Fin.ext ?_)
  obtain ⟨e0, e1⟩ := idx_w17 t
  match a with
  | ⟨0, _⟩ => show win0_17.index t (0 : Fin 2) * 512 + 1 * (y 0).val = (y 0).val; omega
  | ⟨1, _⟩ => show win0_17.index t (1 : Fin 2) * 512 + 1 * (y 1).val = (y 1).val; omega

/-- Weight window 18's block at any point is its whole array: the argument rounded to the product's input format, a
    change of format that is the identity on the extended reals. -/
theorem blk_w18 (c : Dev nD) (t : Fin cfg0.N) :
    (iblk m c 18 t : S512x512.Idx → EReal) = m ((c : Thread nD τ).loc main_arg20) := by
  have e : (V m c main_v8 : S512x512.Idx → EReal) = m ((c : Thread nD τ).loc main_arg20) := by
    dsimp only [Gen.V, Gen.hostOps0]; after_results; rfl
  rw [← e]
  funext y
  show V m c main_v8 (((cfg0.win 18).blk t).view.emb y) = V m c main_v8 y
  refine congrArg _ (funext fun a => Fin.ext ?_)
  obtain ⟨e0, e1⟩ := idx_w18 t
  match a with
  | ⟨0, _⟩ => show win0_18.index t (0 : Fin 2) * 512 + 1 * (y 0).val = (y 0).val; omega
  | ⟨1, _⟩ => show win0_18.index t (1 : Fin 2) * 512 + 1 * (y 1).val = (y 1).val; omega

/-- Weight window 19's block at any point is its whole array: the argument rounded to the product's input format, a
    change of format that is the identity on the extended reals. -/
theorem blk_w19 (c : Dev nD) (t : Fin cfg0.N) :
    (iblk m c 19 t : S512x256.Idx → EReal) = m ((c : Thread nD τ).loc main_arg21) := by
  have e : (V m c main_v9 : S512x256.Idx → EReal) = m ((c : Thread nD τ).loc main_arg21) := by
    dsimp only [Gen.V, Gen.hostOps0]; after_results; rfl
  rw [← e]
  funext y
  show V m c main_v9 (((cfg0.win 19).blk t).view.emb y) = V m c main_v9 y
  refine congrArg _ (funext fun a => Fin.ext ?_)
  obtain ⟨e0, e1⟩ := idx_w19 t
  match a with
  | ⟨0, _⟩ => show win0_19.index t (0 : Fin 2) * 512 + 1 * (y 0).val = (y 0).val; omega
  | ⟨1, _⟩ => show win0_19.index t (1 : Fin 2) * 256 + 1 * (y 1).val = (y 1).val; omega

/-! ## What a point writes back, the cover, and the array after the run -/

/-- Point `t` writes back block `t` of the row-wise result of the arguments. -/
theorem flushed_eq (c : Dev nD) (t : Fin cfg0.N) :
    (dats m 0 c).flushed 20 t = ((cfg0.win 20).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21))) := by
  rw [Value.flushed20]
  funext j
  rw [View.read_apply]
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) j = _
  rw [out_eq_G, blk_w10 m c t, blk_w11 m c t, blk_w12 m c t, blk_w13 m c t, blk_w14 m c t, blk_w15 m c t, blk_w16 m c t,
    blk_w17 m c t, blk_w18 m c t, blk_w19 m c t]
  obtain ⟨e0, e1⟩ := idx_out t
  have hN : cfg0.N = 32 := N_0
  have ht : t.val < 32 := hN ▸ t.isLt
  refine G_block _ _ _ _ _ _ _ _ _ _ _ _ _ _ _ _ _ _ _ _ (256 * t.val) _ _ _ _ _ _ _ _ _ _
    (fun p b hb => (blk_row0 m c t p b hb).trans (congrArg (fun A => row A b) (V_main_arg0 m c)))
    (fun p b hb => (blk_row1 m c t p b hb).trans (congrArg (fun A => row A b) (V_main_arg1 m c)))
    (fun p b hb => (blk_row2 m c t p b hb).trans (congrArg (fun A => row A b) (V_main_arg2 m c)))
    (fun p b hb => (blk_row3 m c t p b hb).trans (congrArg (fun A => row A b) (V_main_arg3 m c)))
    (fun p b hb => (blk_row4 m c t p b hb).trans (congrArg (fun A => row A b) (V_main_arg4 m c)))
    (fun p b hb => (blk_row5 m c t p b hb).trans (congrArg (fun A => row A b) (V_main_arg5 m c)))
    (fun p b hb => (blk_row6 m c t p b hb).trans (congrArg (fun A => row A b) (V_main_arg6 m c)))
    (fun p b hb => (blk_row7 m c t p b hb).trans (congrArg (fun A => row A b) (V_main_arg7 m c)))
    (fun p b hb => (blk_row8 m c t p b hb).trans (congrArg (fun A => row A b) (V_main_arg8 m c)))
    (fun p b hb => (blk_row9 m c t p b hb).trans (congrArg (fun A => row A b) (V_main_arg9 m c)))
    j _ ?_ ?_
  · show win0_20.index t (0 : Fin 2) * 256 + 1 * (j 0).val = 256 * t.val + (j 0).val; omega
  · show win0_20.index t (1 : Fin 2) * 4096 + 1 * (j 1).val = (j 1).val; omega

/-- An index of the result array is in point `t`'s block iff each coordinate is in the block's range. -/
theorem mem_blk (t : Fin cfg0.N) (i : S8192x4096.Idx) :
    i ∈ ((cfg0.win 20).blk t).view.set ↔ ∀ a : Fin 2, win0_20.index t a * S256x4096.size a ≤ (i a).val ∧ (i a).val < win0_20.index t a * S256x4096.size a + S256x4096.size a := by
  show i ∈ ((View.whole main_v10).slice (win0_20.rect t)).set ↔ _
  rw [View.set_slice_whole, Rect.mem_set_unit]
  exact Iff.rfl

/-- Every index of the result array lies in the block of the point that holds its row: point `(i 0) / 256`. -/
theorem cover (i : S8192x4096.Idx) :
    ∃ t : Fin cfg0.N, (cfg0.win 20).flush t = true ∧ i ∈ ((cfg0.win 20).blk t).view.set := by
  have hN : cfg0.N = 32 := N_0
  have hi0 : (i 0).val < 8192 := (i 0).isLt
  have hi1 : (i 1).val < 4096 := (i 1).isLt
  let t : Fin cfg0.N := ⟨(i 0).val / 256, by rw [hN]; omega⟩
  have htv : t.val = (i 0).val / 256 := rfl
  refine ⟨t, flush0_20 t, ?_⟩
  rw [mem_blk]
  obtain ⟨e0, e1⟩ := idx_out t
  intro a
  match a with
  | ⟨0, _⟩ => show win0_20.index t (0 : Fin 2) * 256 ≤ (i 0).val ∧ (i 0).val < win0_20.index t (0 : Fin 2) * 256 + 256; omega
  | ⟨1, _⟩ => show win0_20.index t (1 : Fin 2) * 4096 ≤ (i 1).val ∧ (i 1).val < win0_20.index t (1 : Fin 2) * 4096 + 4096; omega

/-- The result array after the run is the row-wise result of the arguments. -/
theorem final (c : Dev nD) : (dats m 0 c).arrAt 20 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) :=
  (dats m 0 c).arrAt_eq_of_cover 20 _ (fun t _ => flushed_eq m c t) cover

end Cert.KernelIdeal.Blocks

end
-- ==== Proof.RefRows.lean ====
/-
  The reference, read at one entry.

  The reference works on the whole batch of 8192 rows. Each of its stages is read at row `r` and column `n`: a
  transposed weight matrix met by `dot_general` is the sum `∑ k, a (r, k) * w (n, k)`, a broadcast literal is the
  literal, and the elementwise stages are the extended reals' arithmetic. The stages are found equal, one after the
  other, to the row-wise quantities, and the final concatenation of eight 512-column pieces to the row's layout.
-/
import proofs.«171067_j9285719294381_2_alg».proof.Proof.Gen.ReferenceIdeal.Read
import proofs.«171067_j9285719294381_2_alg».proof.Proof.Spec

noncomputable section

namespace Cert.ReferenceIdeal.Rows

open Cert.ReferenceIdeal Cert.ReferenceIdeal.Read Idealize.ShloMosaic Idealize.ShloMosaic.ValueIdx Cert.Lif

/-! ## The operand indices of the ten products -/

theorem lidx_v1 (r : Fin 8192) (n : Fin 1024) (k : Fin 512) : lidx_main_v1 (ix2 r n) k = ix2 r k :=
  funext fun a => Fin.ext (by match a with | ⟨0, _⟩ => rfl | ⟨1, _⟩ => rfl)
theorem ridx_v1 (r : Fin 8192) (n : Fin 1024) (k : Fin 512) : idx_main_v0 (ridx_main_v1 (ix2 r n) k) = ix2 n k :=
  funext fun a => Fin.ext (by match a with | ⟨0, _⟩ => rfl | ⟨1, _⟩ => rfl)

theorem lidx_v6 (r : Fin 8192) (n : Fin 512) (k : Fin 512) : lidx_main_v6 (ix2 r n) k = ix2 r k :=
  funext fun a => Fin.ext (by match a with | ⟨0, _⟩ => rfl | ⟨1, _⟩ => rfl)
theorem ridx_v6 (r : Fin 8192) (n : Fin 512) (k : Fin 512) : idx_main_v5 (ridx_main_v6 (ix2 r n) k) = ix2 n k :=
  funext fun a => Fin.ext (by match a with | ⟨0, _⟩ => rfl | ⟨1, _⟩ => rfl)

theorem lidx_v11 (r : Fin 8192) (n : Fin 512) (k : Fin 256) : lidx_main_v11 (ix2 r n) k = ix2 r k :=
  funext fun a => Fin.ext (by match a with | ⟨0, _⟩ => rfl | ⟨1, _⟩ => rfl)
theorem ridx_v11 (r : Fin 8192) (n : Fin 512) (k : Fin 256) : idx_main_v10 (ridx_main_v11 (ix2 r n) k) = ix2 n k :=
  funext fun a => Fin.ext (by match a with | ⟨0, _⟩ => rfl | ⟨1, _⟩ => rfl)

theorem lidx_v16 (r : Fin 8192) (n : Fin 512) (k : Fin 1024) : lidx_main_v16 (ix2 r n) k = ix2 r k :=
  funext fun a => Fin.ext (by match a with | ⟨0, _⟩ => rfl | ⟨1, _⟩ => rfl)
theorem ridx_v16 (r : Fin 8192) (n : Fin 512) (k : Fin 1024) : idx_main_v15 (ridx_main_v16 (ix2 r n) k) = ix2 n k :=
  funext fun a => Fin.ext (by match a with | ⟨0, _⟩ => rfl | ⟨1, _⟩ => rfl)

theorem lidx_v21 (r : Fin 8192) (n : Fin 512) (k : Fin 512) : lidx_main_v21 (ix2 r n) k = ix2 r k :=
  funext fun a => Fin.ext (by match a with | ⟨0, _⟩ => rfl | ⟨1, _⟩ => rfl)
theorem ridx_v21 (r : Fin 8192) (n : Fin 512) (k : Fin 512) : idx_main_v20 (ridx_main_v21 (ix2 r n) k) = ix2 n k :=
  funext fun a => Fin.ext (by match a with | ⟨0, _⟩ => rfl | ⟨1, _⟩ => rfl)

theorem lidx_v26 (r : Fin 8192) (n : Fin 256) (k : Fin 512) : lidx_main_v26 (ix2 r n) k = ix2 r k :=
  funext fun a => Fin.ext (by match a with | ⟨0, _⟩ => rfl | ⟨1, _⟩ => rfl)
theorem ridx_v26 (r : Fin 8192) (n : Fin 256) (k : Fin 512) : idx_main_v25 (ridx_main_v26 (ix2 r n) k) = ix2 n k :=
  funext fun a => Fin.ext (by match a with | ⟨0, _⟩ => rfl | ⟨1, _⟩ => rfl)

theorem lidx_v33 (r : Fin 8192) (n : Fin 512) (k : Fin 1024) : lidx_main_v33 (ix2 r n) k = ix2 r k :=
  funext fun a => Fin.ext (by match a with | ⟨0, _⟩ => rfl | ⟨1, _⟩ => rfl)
theorem ridx_v33 (r : Fin 8192) (n : Fin 512) (k : Fin 1024) : idx_main_v32 (ridx_main_v33 (ix2 r n) k) = ix2 n k :=
  funext fun a => Fin.ext (by match a with | ⟨0, _⟩ => rfl | ⟨1, _⟩ => rfl)

theorem lidx_v36 (r : Fin 8192) (n : Fin 512) (k : Fin 512) : lidx_main_v36 (ix2 r n) k = ix2 r k :=
  funext fun a => Fin.ext (by match a with | ⟨0, _⟩ => rfl | ⟨1, _⟩ => rfl)
theorem ridx_v36 (r : Fin 8192) (n : Fin 512) (k : Fin 512) : idx_main_v35 (ridx_main_v36 (ix2 r n) k) = ix2 n k :=
  funext fun a => Fin.ext (by match a with | ⟨0, _⟩ => rfl | ⟨1, _⟩ => rfl)

theorem lidx_v41 (r : Fin 8192) (n : Fin 512) (k : Fin 512) : lidx_main_v41 (ix2 r n) k = ix2 r k :=
  funext fun a => Fin.ext (by match a with | ⟨0, _⟩ => rfl | ⟨1, _⟩ => rfl)
theorem ridx_v41 (r : Fin 8192) (n : Fin 512) (k : Fin 512) : idx_main_v40 (ridx_main_v41 (ix2 r n) k) = ix2 n k :=
  funext fun a => Fin.ext (by match a with | ⟨0, _⟩ => rfl | ⟨1, _⟩ => rfl)

theorem lidx_v44 (r : Fin 8192) (n : Fin 512) (k : Fin 256) : lidx_main_v44 (ix2 r n) k = ix2 r k :=
  funext fun a => Fin.ext (by match a with | ⟨0, _⟩ => rfl | ⟨1, _⟩ => rfl)
theorem ridx_v44 (r : Fin 8192) (n : Fin 512) (k : Fin 256) : idx_main_v43 (ridx_main_v44 (ix2 r n) k) = ix2 n k :=
  funext fun a => Fin.ext (by match a with | ⟨0, _⟩ => rfl | ⟨1, _⟩ => rfl)

variable (x0 : FVec Ideal S8192x1024 .f32) (x1 : FVec Ideal S8192x256 .f32)
  (x2 x3 x4 x5 x6 x7 x8 x9 : FVec Ideal S8192x512 .f32)
  (x10 : FVec Ideal S1024x512 .f32) (x11 : FVec Ideal S512x512 .f32) (x12 : FVec Ideal S512x256 .f32)
  (x13 : FVec Ideal S512x1024 .f32) (x14 : FVec Ideal S512x512 .f32) (x15 : FVec Ideal S256x512 .f32)
  (x16 : FVec Ideal S512x1024 .f32) (x17 x20 : FVec Ideal S512x512 .f32) (x21 : FVec Ideal S512x256 .f32)

/-- Batch row `r` of the ten batch arguments. -/
abbrev R (r : Fin 8192) : Row := rowOf x0 x1 x2 x3 x4 x5 x6 x7 x8 x9 r

/-- The ten weight matrices the reference uses. -/
abbrev W : Wts := wtsOf x10 x11 x12 x13 x14 x15 x16 x17 x20 x21

local notation "RR" => R x0 x1 x2 x3 x4 x5 x6 x7 x8 x9
local notation "WW" => W x10 x11 x12 x13 x14 x15 x16 x17 x20 x21

/-! ## The six errors -/

theorem egen0_at (r : Fin 8192) (n : Fin 1024) : val_main_v4 (F := Ideal) x0 x4 x10 (ix2 r n) = egen0 (RR r) WW n := by
  simp only [val_main_v4_apply, val_main_v3_apply, val_main_cst_apply, val_main_v2_apply, val_main_v1_apply, val_main_v0_apply, lidx_v1, ridx_v1]
  rfl

theorem egen1_at (r : Fin 8192) (n : Fin 512) : val_main_v9 (F := Ideal) x5 x8 x11 (ix2 r n) = egen1 (RR r) WW n := by
  simp only [val_main_v9_apply, val_main_v8_apply, val_main_cst_0_apply, val_main_v7_apply, val_main_v6_apply, val_main_v5_apply, lidx_v6, ridx_v6]
  rfl

theorem egen2_at (r : Fin 8192) (n : Fin 512) : val_main_v14 (F := Ideal) x1 x9 x12 (ix2 r n) = egen2 (RR r) WW n := by
  simp only [val_main_v14_apply, val_main_v13_apply, val_main_cst_1_apply, val_main_v12_apply, val_main_v11_apply, val_main_v10_apply, lidx_v11, ridx_v11]
  rfl

theorem edisc1_at (r : Fin 8192) (n : Fin 512) : val_main_v19 (F := Ideal) x0 x5 x13 (ix2 r n) = edisc1 (RR r) WW n := by
  simp only [val_main_v19_apply, val_main_v18_apply, val_main_cst_2_apply, val_main_v17_apply, val_main_v16_apply, val_main_v15_apply, lidx_v16, ridx_v16]
  rfl

theorem edisc2_at (r : Fin 8192) (n : Fin 512) : val_main_v24 (F := Ideal) x4 x9 x14 (ix2 r n) = edisc2 (RR r) WW n := by
  simp only [val_main_v24_apply, val_main_v23_apply, val_main_cst_3_apply, val_main_v22_apply, val_main_v21_apply, val_main_v20_apply, lidx_v21, ridx_v21]
  rfl

theorem edisc3_at (r : Fin 8192) (n : Fin 256) : val_main_v29 (F := Ideal) x1 x8 x15 (ix2 r n) = edisc3 (RR r) WW n := by
  simp only [val_main_v29_apply, val_main_v28_apply, val_main_cst_4_apply, val_main_v27_apply, val_main_v26_apply, val_main_v25_apply, lidx_v26, ridx_v26]
  rfl

/-! ## The two total inputs -/

theorem total1_at (r : Fin 8192) (n : Fin 512) : val_main_v37 (F := Ideal) x0 x4 x5 x8 x9 x10 x11 x13 x14 x16 x20 (ix2 r n) = total1 (RR r) WW n := by
  simp only [val_main_v37_apply, val_main_v36_apply, val_main_v35_apply, val_main_v34_apply, val_main_v33_apply, val_main_v32_apply, val_main_v31_apply, val_main_v30_apply, lidx_v33, ridx_v33, lidx_v36, ridx_v36,
    egen0_at x0 x1 x2 x3 x4 x5 x6 x7 x8 x9 x10 x11 x12 x13 x14 x15 x16 x17 x20 x21, egen1_at x0 x1 x2 x3 x4 x5 x6 x7 x8 x9 x10 x11 x12 x13 x14 x15 x16 x17 x20 x21, edisc1_at x0 x1 x2 x3 x4 x5 x6 x7 x8 x9 x10 x11 x12 x13 x14 x15 x16 x17 x20 x21, edisc2_at x0 x1 x2 x3 x4 x5 x6 x7 x8 x9 x10 x11 x12 x13 x14 x15 x16 x17 x20 x21]
  rfl

theorem total2_at (r : Fin 8192) (n : Fin 512) : val_main_v45 (F := Ideal) x1 x4 x5 x8 x9 x11 x12 x14 x15 x17 x21 (ix2 r n) = total2 (RR r) WW n := by
  simp only [val_main_v45_apply, val_main_v44_apply, val_main_v43_apply, val_main_v42_apply, val_main_v41_apply, val_main_v40_apply, val_main_v39_apply, val_main_v38_apply, lidx_v41, ridx_v41, lidx_v44, ridx_v44,
    egen1_at x0 x1 x2 x3 x4 x5 x6 x7 x8 x9 x10 x11 x12 x13 x14 x15 x16 x17 x20 x21, egen2_at x0 x1 x2 x3 x4 x5 x6 x7 x8 x9 x10 x11 x12 x13 x14 x15 x16 x17 x20 x21, edisc2_at x0 x1 x2 x3 x4 x5 x6 x7 x8 x9 x10 x11 x12 x13 x14 x15 x16 x17 x20 x21, edisc3_at x0 x1 x2 x3 x4 x5 x6 x7 x8 x9 x10 x11 x12 x13 x14 x15 x16 x17 x20 x21]
  rfl

/-! ## Layer one's step -/

theorem j1n_at (r : Fin 8192) (n : Fin 512) : val_main_v51 (F := Ideal) x0 x2 x4 x5 x8 x9 x10 x11 x13 x14 x16 x20 (ix2 r n) = j1n (RR r) WW n := by
  simp only [val_main_v51_apply, val_main_v50_apply, val_main_v49_apply, val_main_cst_6_apply, val_main_v48_apply, val_main_v47_apply, val_main_v46_apply, val_main_cst_5_apply, total1_at x0 x1 x2 x3 x4 x5 x6 x7 x8 x9 x10 x11 x12 x13 x14 x15 x16 x17 x20 x21]
  rfl

theorem v1p_at (r : Fin 8192) (n : Fin 512) : val_main_v56 (F := Ideal) x0 x2 x3 x4 x5 x8 x9 x10 x11 x13 x14 x16 x20 (ix2 r n) = v1p (RR r) WW n := by
  simp only [val_main_v56_apply, val_main_v55_apply, val_main_v54_apply, val_main_cst_7_apply, val_main_v53_apply, val_main_v52_apply, j1n_at x0 x1 x2 x3 x4 x5 x6 x7 x8 x9 x10 x11 x12 x13 x14 x15 x16 x17 x20 x21]
  rfl

theorem s1n_at (r : Fin 8192) (n : Fin 512) : val_main_v59 (F := Ideal) x0 x2 x3 x4 x5 x8 x9 x10 x11 x13 x14 x16 x20 (ix2 r n) = spike (v1p (RR r) WW n) := by
  simp only [val_main_v59_apply, val_main_v58_apply, val_main_v57_apply, val_main_cst_8_apply, v1p_at x0 x1 x2 x3 x4 x5 x6 x7 x8 x9 x10 x11 x12 x13 x14 x15 x16 x17 x20 x21]
  rfl

theorem v1n_at (r : Fin 8192) (n : Fin 512) : val_main_v62 (F := Ideal) x0 x2 x3 x4 x5 x8 x9 x10 x11 x13 x14 x16 x20 (ix2 r n) = vNext (v1p (RR r) WW n) := by
  simp only [val_main_v62_apply, val_main_v61_apply, val_main_v60_apply, val_main_cst_9_apply, v1p_at x0 x1 x2 x3 x4 x5 x6 x7 x8 x9 x10 x11 x12 x13 x14 x15 x16 x17 x20 x21, s1n_at x0 x1 x2 x3 x4 x5 x6 x7 x8 x9 x10 x11 x12 x13 x14 x15 x16 x17 x20 x21]
  rfl

theorem x1n_at (r : Fin 8192) (n : Fin 512) : val_main_v67 (F := Ideal) x0 x2 x3 x4 x5 x8 x9 x10 x11 x13 x14 x16 x20 (ix2 r n) = xNext ((RR r).x1 n) (v1p (RR r) WW n) := by
  simp only [val_main_v67_apply, val_main_v66_apply, val_main_v65_apply, val_main_v64_apply, val_main_cst_10_apply, val_main_v63_apply, s1n_at x0 x1 x2 x3 x4 x5 x6 x7 x8 x9 x10 x11 x12 x13 x14 x15 x16 x17 x20 x21]
  rfl

/-! ## Layer two's step -/

theorem j2n_at (r : Fin 8192) (n : Fin 512) : val_main_v73 (F := Ideal) x1 x4 x5 x6 x8 x9 x11 x12 x14 x15 x17 x21 (ix2 r n) = j2n (RR r) WW n := by
  simp only [val_main_v73_apply, val_main_v72_apply, val_main_v71_apply, val_main_cst_12_apply, val_main_v70_apply, val_main_v69_apply, val_main_v68_apply, val_main_cst_11_apply, total2_at x0 x1 x2 x3 x4 x5 x6 x7 x8 x9 x10 x11 x12 x13 x14 x15 x16 x17 x20 x21]
  rfl

theorem v2p_at (r : Fin 8192) (n : Fin 512) : val_main_v78 (F := Ideal) x1 x4 x5 x6 x7 x8 x9 x11 x12 x14 x15 x17 x21 (ix2 r n) = v2p (RR r) WW n := by
  simp only [val_main_v78_apply, val_main_v77_apply, val_main_v76_apply, val_main_cst_13_apply, val_main_v75_apply, val_main_v74_apply, j2n_at x0 x1 x2 x3 x4 x5 x6 x7 x8 x9 x10 x11 x12 x13 x14 x15 x16 x17 x20 x21]
  rfl

theorem s2n_at (r : Fin 8192) (n : Fin 512) : val_main_v81 (F := Ideal) x1 x4 x5 x6 x7 x8 x9 x11 x12 x14 x15 x17 x21 (ix2 r n) = spike (v2p (RR r) WW n) := by
  simp only [val_main_v81_apply, val_main_v80_apply, val_main_v79_apply, val_main_cst_14_apply, v2p_at x0 x1 x2 x3 x4 x5 x6 x7 x8 x9 x10 x11 x12 x13 x14 x15 x16 x17 x20 x21]
  rfl

theorem v2n_at (r : Fin 8192) (n : Fin 512) : val_main_v84 (F := Ideal) x1 x4 x5 x6 x7 x8 x9 x11 x12 x14 x15 x17 x21 (ix2 r n) = vNext (v2p (RR r) WW n) := by
  simp only [val_main_v84_apply, val_main_v83_apply, val_main_v82_apply, val_main_cst_15_apply, v2p_at x0 x1 x2 x3 x4 x5 x6 x7 x8 x9 x10 x11 x12 x13 x14 x15 x16 x17 x20 x21, s2n_at x0 x1 x2 x3 x4 x5 x6 x7 x8 x9 x10 x11 x12 x13 x14 x15 x16 x17 x20 x21]
  rfl

theorem x2n_at (r : Fin 8192) (n : Fin 512) : val_main_v89 (F := Ideal) x1 x4 x5 x6 x7 x8 x9 x11 x12 x14 x15 x17 x21 (ix2 r n) = xNext ((RR r).x2 n) (v2p (RR r) WW n) := by
  simp only [val_main_v89_apply, val_main_v88_apply, val_main_v87_apply, val_main_v86_apply, val_main_cst_16_apply, val_main_v85_apply, s2n_at x0 x1 x2 x3 x4 x5 x6 x7 x8 x9 x10 x11 x12 x13 x14 x15 x16 x17 x20 x21]
  rfl

/-! ## The concatenation -/

/-- Column `c` of row `r` of the concatenated result is column `c` of the row's layout: piece `c / 512` at `c % 512`. -/
theorem out_at (r : Fin 8192) (c : Fin 4096) :
    val_main_v90 (F := Ideal) x0 x1 x2 x3 x4 x5 x6 x7 x8 x9 x10 x11 x12 x13 x14 x15 x16 x17 x20 x21 (ix2 r c) = out (RR r) WW c := by
  have hcl : c.val < 4096 := c.isLt
  obtain ⟨q, n, hc⟩ : ∃ (q : Fin 8) (n : Fin 512), c.val = 512 * q.val + n.val :=
    ⟨⟨c.val / 512, by omega⟩, ⟨c.val % 512, Nat.mod_lt _ (by decide)⟩, by
      show c.val = 512 * (c.val / 512) + c.val % 512
      omega⟩
  rw [out_eq _ _ c q n hc]
  have hi : ∀ b : Fin S8192x512.rank, b.cast (rfl : S8192x512.rank = S8192x4096.rank) ≠ (1 : Fin S8192x4096.rank) →
      ((ix2 r n : S8192x512.Idx) b).val = ((ix2 r c : S8192x4096.Idx) (b.cast rfl)).val := fun b hb => by
    match b, hb with
    | ⟨0, _⟩, _ => rfl
    | ⟨1, _⟩, hb => exact absurd rfl hb
  unfold val_main_v90
  match q, hc with
  | ⟨0, _⟩, hc =>
    have hc' : c.val = 0 + n.val := hc
    exact (concatenate_apply_piece 1 _ _ (ix2 r c) 0 (by show 0 < 8; omega) S8192x512 _ rfl rfl 0 rfl (ix2 r n) hi
      (by show 0 + n.val = c.val; omega)).trans (j1n_at x0 x1 x2 x3 x4 x5 x6 x7 x8 x9 x10 x11 x12 x13 x14 x15 x16 x17 x20 x21 r n)
  | ⟨1, _⟩, hc =>
    have hc' : c.val = 512 + n.val := hc
    exact (concatenate_apply_piece 1 _ _ (ix2 r c) 1 (by show 1 < 8; omega) S8192x512 _ rfl rfl 512 rfl (ix2 r n) hi
      (by show 512 + n.val = c.val; omega)).trans (v1n_at x0 x1 x2 x3 x4 x5 x6 x7 x8 x9 x10 x11 x12 x13 x14 x15 x16 x17 x20 x21 r n)
  | ⟨2, _⟩, hc =>
    have hc' : c.val = 1024 + n.val := hc
    exact (concatenate_apply_piece 1 _ _ (ix2 r c) 2 (by show 2 < 8; omega) S8192x512 _ rfl rfl 1024 rfl (ix2 r n) hi
      (by show 1024 + n.val = c.val; omega)).trans (x1n_at x0 x1 x2 x3 x4 x5 x6 x7 x8 x9 x10 x11 x12 x13 x14 x15 x16 x17 x20 x21 r n)
  | ⟨3, _⟩, hc =>
    have hc' : c.val = 1536 + n.val := hc
    exact (concatenate_apply_piece 1 _ _ (ix2 r c) 3 (by show 3 < 8; omega) S8192x512 _ rfl rfl 1536 rfl (ix2 r n) hi
      (by show 1536 + n.val = c.val; omega)).trans (s1n_at x0 x1 x2 x3 x4 x5 x6 x7 x8 x9 x10 x11 x12 x13 x14 x15 x16 x17 x20 x21 r n)
  | ⟨4, _⟩, hc =>
    have hc' : c.val = 2048 + n.val := hc
    exact (concatenate_apply_piece 1 _ _ (ix2 r c) 4 (by show 4 < 8; omega) S8192x512 _ rfl rfl 2048 rfl (ix2 r n) hi
      (by show 2048 + n.val = c.val; omega)).trans (j2n_at x0 x1 x2 x3 x4 x5 x6 x7 x8 x9 x10 x11 x12 x13 x14 x15 x16 x17 x20 x21 r n)
  | ⟨5, _⟩, hc =>
    have hc' : c.val = 2560 + n.val := hc
    exact (concatenate_apply_piece 1 _ _ (ix2 r c) 5 (by show 5 < 8; omega) S8192x512 _ rfl rfl 2560 rfl (ix2 r n) hi
      (by show 2560 + n.val = c.val; omega)).trans (v2n_at x0 x1 x2 x3 x4 x5 x6 x7 x8 x9 x10 x11 x12 x13 x14 x15 x16 x17 x20 x21 r n)
  | ⟨6, _⟩, hc =>
    have hc' : c.val = 3072 + n.val := hc
    exact (concatenate_apply_piece 1 _ _ (ix2 r c) 6 (by show 6 < 8; omega) S8192x512 _ rfl rfl 3072 rfl (ix2 r n) hi
      (by show 3072 + n.val = c.val; omega)).trans (x2n_at x0 x1 x2 x3 x4 x5 x6 x7 x8 x9 x10 x11 x12 x13 x14 x15 x16 x17 x20 x21 r n)
  | ⟨7, _⟩, hc =>
    have hc' : c.val = 3584 + n.val := hc
    exact (concatenate_apply_piece 1 _ _ (ix2 r c) 7 (by show 7 < 8; omega) S8192x512 _ rfl rfl 3584 rfl (ix2 r n) hi
      (by show 3584 + n.val = c.val; omega)).trans (s2n_at x0 x1 x2 x3 x4 x5 x6 x7 x8 x9 x10 x11 x12 x13 x14 x15 x16 x17 x20 x21 r n)
  | ⟨k + 8, h⟩, _ => exact absurd h (by omega)

/-- The reference's result is the row-wise result, over the whole batch. -/
theorem result_eq :
    val_main_v90 (F := Ideal) x0 x1 x2 x3 x4 x5 x6 x7 x8 x9 x10 x11 x12 x13 x14 x15 x16 x17 x20 x21 = G x0 x1 x2 x3 x4 x5 x6 x7 x8 x9 x10 x11 x12 x13 x14 x15 x16 x17 x20 x21 := by
  funext i
  obtain ⟨r, c, rfl⟩ : ∃ (r : Fin 8192) (c : Fin 4096), i = ix2 r c := ⟨i 0, i 1, eq_ix2 i⟩
  exact out_at x0 x1 x2 x3 x4 x5 x6 x7 x8 x9 x10 x11 x12 x13 x14 x15 x16 x17 x20 x21 r c

end Cert.ReferenceIdeal.Rows

end
-- ==== Proof.lean ====
/-
  One step of a two-layer predictive-coding network of leaky integrate-and-fire units, for 8192 batch rows.

  Both programs compute, row by row: six prediction errors `x − a·wᵀ` between the layers' activities and what the
  neighbouring layers predict through ten weight matrices; from them the total input of each hidden layer (the negated
  sum of the layer's own two errors, plus the errors of the layers below and above carried through the feedback
  matrices); and for each hidden layer one step of current, membrane potential, threshold spike, hard reset and spike
  trace. The result lays the eight 512-entry vectors of a row side by side in 4096 columns.

  The kernel tiles the batch in 32 blocks of 256 rows, keeps the weight matrices (rounded once to the matrix unit's
  input format) resident, contracts each activity block with a weight matrix on the last axis of both, and stores the
  eight pieces into one output block. The reference transposes each weight matrix and uses `dot_general` over the
  whole batch, then concatenates. On the extended reals a change of float format is the identity, a product accumulated
  from zero is the plain sum over the contracted index, `0 − x` is `−x`, and a comparison widened to a word and
  converted is the comparison converted: so both programs are the same row-wise function `Cert.Lif.G` of the arguments
  (Proof/Spec.lean). No law that needs finite operands is used, so the precondition is never opened.

  The three frames are the generated ones (the reference's is its generated run with the result dropped); the
  idealization rewrote nothing, so `preserves` is trivial; `algebraic` sets the kernel's run, with the result array read
  as `G` of the arguments (Proof/KerBlocks.lean), beside the reference's run, whose result term is `G` of the arguments
  (Proof/RefRows.lean).
-/
import proofs.«171067_j9285719294381_2_alg».proof.Defs
import proofs.«171067_j9285719294381_2_alg».proof.Proof.Gen.Kernel
import proofs.«171067_j9285719294381_2_alg».proof.Proof.Gen.Kernel.Skeleton
import proofs.«171067_j9285719294381_2_alg».proof.Proof.Gen.Kernel.Launch
import proofs.«171067_j9285719294381_2_alg».proof.Proof.Gen.Kernel.Points
import proofs.«171067_j9285719294381_2_alg».proof.Proof.Gen.Kernel.Frame
import proofs.«171067_j9285719294381_2_alg».proof.Proof.Gen.KernelIdeal
import proofs.«171067_j9285719294381_2_alg».proof.Proof.Gen.KernelIdeal.Skeleton
import proofs.«171067_j9285719294381_2_alg».proof.Proof.Gen.KernelIdeal.Launch
import proofs.«171067_j9285719294381_2_alg».proof.Proof.Gen.KernelIdeal.Points
import proofs.«171067_j9285719294381_2_alg».proof.Proof.Gen.KernelIdeal.Frame
import proofs.«171067_j9285719294381_2_alg».proof.Proof.Gen.ReferenceIdeal
import proofs.«171067_j9285719294381_2_alg».proof.Proof.Gen.Pre_finite_inputs
import proofs.«171067_j9285719294381_2_alg».proof.Proof.Gen.KernelIdeal.Value
import proofs.«171067_j9285719294381_2_alg».proof.Proof.Gen.ReferenceIdeal.Run
import proofs.«171067_j9285719294381_2_alg».proof.Proof.Gen.ReferenceIdeal.Read
import proofs.«171067_j9285719294381_2_alg».proof.Proof.KerBlocks
import proofs.«171067_j9285719294381_2_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends as the row-wise result of the
    arguments, and so does the reference's. -/
theorem algebraic : Cert.algebraic_KernelIdeal_ReferenceIdeal := by
  intro m ρ m' ρ' _ hagree
  refine ⟨fun c => Cert.Lif.G (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg20)) (m ((c : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Blocks.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21⟩ := hagree c
    rw [Cert.ReferenceIdeal.Read.val_main_v90_eq, Cert.ReferenceIdeal.Rows.result_eq,
      a0, a1, a2, a3, a4, a5, a6, a7, a8, a9, a10, a11, a12, a13, a14, a15, a16, a17, a20, a21]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
